-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S640000 : Shape := ⟨1, ![640000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x128 .f32) (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S50000x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_arg18 : IVec S640000 32) (main_arg19 : IVec S640000 32) (main_arg20 : IVec S200000 32) (main_arg21 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S640000 : Shape := ⟨1, ![640000]⟩
abbrev S200000 : Shape := ⟨1, ![200000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S1x1 : Shape := ⟨2, ![1, 1]⟩

abbrev nBuf : Space → Nat
  | .hbm => 166
  | .vmem => 55
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S640000, .i32⟩
  | 19 => ⟨S640000, .i32⟩
  | 20 => ⟨S200000, .i32⟩
  | 21 => ⟨S200000, .i32⟩
  | 22 => ⟨S100000x128, .bf16⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .bf16⟩
  | 32 => ⟨S640000x128, .f32⟩
  | 33 => ⟨S_, .f32⟩
  | 34 => ⟨S50000x128, .f32⟩
  | 35 => ⟨S640000x1, .i32⟩
  | 36 => ⟨S50000x128, .f32⟩
  | 37 => ⟨S_, .f32⟩
  | 38 => ⟨S640000, .f32⟩
  | 39 => ⟨S_, .f32⟩
  | 40 => ⟨S50000, .f32⟩
  | 41 => ⟨S640000x1, .i32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S50000x1, .f32⟩
  | 50 => ⟨S1x128, .f32⟩
  | 51 => ⟨S50000x128, .f32⟩
  | 52 => ⟨S50000x128, .bf16⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x128, .bf16⟩
  | 62 => ⟨S640000x128, .f32⟩
  | 63 => ⟨S_, .f32⟩
  | 64 => ⟨S100000x128, .f32⟩
  | 65 => ⟨S640000x1, .i32⟩
  | 66 => ⟨S100000x128, .f32⟩
  | 67 => ⟨S_, .f32⟩
  | 68 => ⟨S640000, .f32⟩
  | 69 => ⟨S_, .f32⟩
  | 70 => ⟨S100000, .f32⟩
  | 71 => ⟨S640000x1, .i32⟩
  | 72 => ⟨S100000, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S100000x1, .f32⟩
  | 80 => ⟨S1x128, .f32⟩
  | 81 => ⟨S100000x128, .f32⟩
  | 82 => ⟨S100000x128, .bf16⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .bf16⟩
  | 92 => ⟨S640000x128, .f32⟩
  | 93 => ⟨S_, .f32⟩
  | 94 => ⟨S50000x128, .f32⟩
  | 95 => ⟨S640000x1, .i32⟩
  | 96 => ⟨S50000x128, .f32⟩
  | 97 => ⟨S_, .f32⟩
  | 98 => ⟨S640000, .f32⟩
  | 99 => ⟨S_, .f32⟩
  | 100 => ⟨S50000, .f32⟩
  | 101 => ⟨S640000x1, .i32⟩
  | 102 => ⟨S50000, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S50000x1, .f32⟩
  | 110 => ⟨S1x128, .f32⟩
  | 111 => ⟨S50000x128, .f32⟩
  | 112 => ⟨S50000x128, .bf16⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .bf16⟩
  | 122 => ⟨S640000x128, .f32⟩
  | 123 => ⟨S_, .f32⟩
  | 124 => ⟨S100000x128, .f32⟩
  | 125 => ⟨S640000x1, .i32⟩
  | 126 => ⟨S100000x128, .f32⟩
  | 127 => ⟨S_, .f32⟩
  | _ => ⟨S100000x128, .f32⟩

abbrev hbmTy0_1 (i : Nat) : BufTy := match i % 128 with
  | 0 => ⟨S640000, .f32⟩
  | 1 => ⟨S_, .f32⟩
  | 2 => ⟨S100000, .f32⟩
  | 3 => ⟨S640000x1, .i32⟩
  | 4 => ⟨S100000, .f32⟩
  | 5 => ⟨S_, .f32⟩
  | 6 => ⟨S100000, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S1x128, .f32⟩
  | 13 => ⟨S100000x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S128x128, .f32⟩
  | 33 => ⟨S128x128, .f32⟩
  | 34 => ⟨S1x128, .f32⟩
  | 35 => ⟨S1x1, .f32⟩
  | 36 => ⟨S200000x1, .f32⟩
  | 37 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S128x1, .f32⟩
  | .local _ .vmem, ⟨52, _⟩ => ⟨S1x1, .f32⟩
  | .local _ .vmem, ⟨53, _⟩ => ⟨S5000x1, .f32⟩
  | .local _ .vmem, ⟨54, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_8 : Ref sig .tc := ⟨.hbm, 67, rfl⟩
abbrev main_v35 : Ref sig .tc := ⟨.hbm, 68, rfl⟩
abbrev main_cst_9 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_10 : Ref sig .tc := ⟨.hbm, 73, rfl⟩
abbrev main_v39 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_12 : Ref sig .tc := ⟨.hbm, 83, rfl⟩
abbrev main_v47 : Ref sig .tc := ⟨.hbm, 84, rfl⟩
abbrev main_v48 : Ref sig .tc := ⟨.hbm, 85, rfl⟩
abbrev main_c_13 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_14 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_cst_16 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_17 : Ref sig .tc := ⟨.hbm, 103, rfl⟩
abbrev main_v62 : Ref sig .tc := ⟨.hbm, 104, rfl⟩
abbrev main_v63 : Ref sig .tc := ⟨.hbm, 105, rfl⟩
abbrev main_cst_18 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_19 : Ref sig .tc := ⟨.hbm, 113, rfl⟩
abbrev main_v70 : Ref sig .tc := ⟨.hbm, 114, rfl⟩
abbrev main_v71 : Ref sig .tc := ⟨.hbm, 115, rfl⟩
abbrev main_c_20 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_21 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_22 : Ref sig .tc := ⟨.hbm, 127, rfl⟩
abbrev main_v81 : Ref sig .tc := ⟨.hbm, 128, rfl⟩
abbrev main_cst_23 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_24 : Ref sig .tc := ⟨.hbm, 133, rfl⟩
abbrev main_v85 : Ref sig .tc := ⟨.hbm, 134, rfl⟩
abbrev main_v86 : Ref sig .tc := ⟨.hbm, 135, rfl⟩
abbrev main_cst_25 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_26 : Ref sig .tc := ⟨.hbm, 142, rfl⟩
abbrev main_v92 : Ref sig .tc := ⟨.hbm, 143, rfl⟩
abbrev main_v93 : Ref sig .tc := ⟨.hbm, 144, rfl⟩
abbrev main_c_27 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_28 : Ref sig .tc := ⟨.hbm, 151, rfl⟩
abbrev main_v99 : Ref sig .tc := ⟨.hbm, 152, rfl⟩
abbrev main_v100 : Ref sig .tc := ⟨.hbm, 153, rfl⟩
abbrev main_c_29 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S200000 : S_.BroadcastsInDim S200000 (![] : Fin 0 → Fin S200000.rank)
  bcast_S200000_S200000x1_0 : S200000.BroadcastsInDim S200000x1 (![0] : Fin 1 → Fin S200000x1.rank)
  slices_S256x128_S128x128_0_0 : S256x128.Slices ![0, 0] S128x128
  slices_S256x128_S128x128_128_0 : S256x128.Slices ![128, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S200000x1_S200000 : S200000x1.ShapeCasts S200000
  gather_S100000x128_S640000x1_S640000x128_1_0_n_n_0_1_1128_wf : GatherDims.WF S100000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S200000x1.size a
  hwx4_7 : ∀ i : grid4.Coords, EltTy.bits .f32 = 32 ∨ (Rect.block (s := S200000x1) S5000x1.size (cc4_transform_7 i) (hinb4_7 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v109) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v110) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S640000 : Shape := ⟨1, ![640000]⟩
abbrev S200000 : Shape := ⟨1, ![200000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S640000, .i32⟩
  | 19 => ⟨S640000, .i32⟩
  | 20 => ⟨S200000, .i32⟩
  | 21 => ⟨S200000, .i32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S_, .f32⟩
  | 32 => ⟨S50000x128, .f32⟩
  | 33 => ⟨S640000x1, .i32⟩
  | 34 => ⟨S50000x128, .f32⟩
  | 35 => ⟨S_, .f32⟩
  | 36 => ⟨S640000, .f32⟩
  | 37 => ⟨S_, .f32⟩
  | 38 => ⟨S50000, .f32⟩
  | 39 => ⟨S640000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .f32⟩
  | 66 => ⟨S100000x128, .f32⟩
  | 67 => ⟨S640000x1, .i32⟩
  | 68 => ⟨S100000x128, .f32⟩
  | 69 => ⟨S_, .f32⟩
  | 70 => ⟨S640000, .f32⟩
  | 71 => ⟨S_, .f32⟩
  | 72 => ⟨S100000, .f32⟩
  | 73 => ⟨S640000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x128, .f32⟩
  | 99 => ⟨S_, .f32⟩
  | 100 => ⟨S50000x128, .f32⟩
  | 101 => ⟨S640000x1, .i32⟩
  | 102 => ⟨S50000x128, .f32⟩
  | 103 => ⟨S_, .f32⟩
  | 104 => ⟨S640000, .f32⟩
  | 105 => ⟨S_, .f32⟩
  | 106 => ⟨S50000, .f32⟩
  | 107 => ⟨S640000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S100000x128, .f32⟩

abbrev hbmTy0_1 (i : Nat) : BufTy := match i % 128 with
  | 0 => ⟨S640000x1, .i32⟩
  | 1 => ⟨S640000x128, .f32⟩
  | 2 => ⟨S_, .f32⟩
  | 3 => ⟨S100000x128, .f32⟩
  | 4 => ⟨S640000x1, .i32⟩
  | 5 => ⟨S100000x128, .f32⟩
  | 6 => ⟨S_, .f32⟩
  | 7 => ⟨S640000, .f32⟩
  | 8 => ⟨S_, .f32⟩
  | 9 => ⟨S100000, .f32⟩
  | 10 => ⟨S640000x1, .i32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S100000x128, .f32⟩
  | 23 => ⟨S100000x128, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x128, .f32⟩
  | 42 => ⟨S200000x256, .f32⟩
  | 43 => ⟨S200000x128, .f32⟩
  | 44 => ⟨S1x128, .f32⟩
  | 45 => ⟨S200000x128, .f32⟩
  | 46 => ⟨S200000x128, .f32⟩
  | 47 => ⟨S_, .f32⟩
  | 48 => ⟨S200000x128, .f32⟩
  | 49 => ⟨S200000x128, .f32⟩
  | 50 => ⟨S200000x1, .f32⟩
  | 51 => ⟨S1x1, .f32⟩
  | 52 => ⟨S200000x1, .f32⟩
  | 53 => ⟨S200000x1, .f32⟩
  | 54 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_8 : Ref sig .tc := ⟨.hbm, 69, rfl⟩
abbrev main_v37 : Ref sig .tc := ⟨.hbm, 70, rfl⟩
abbrev main_cst_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_c_12 : Ref sig .tc := ⟨.hbm, 90, rfl⟩
abbrev main_v54 : Ref sig .tc := ⟨.hbm, 91, rfl⟩
abbrev main_v55 : Ref sig .tc := ⟨.hbm, 92, rfl⟩
abbrev main_c_13 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_18 : Ref sig .tc := ⟨.hbm, 121, rfl⟩
abbrev main_v79 : Ref sig .tc := ⟨.hbm, 122, rfl⟩
abbrev main_v80 : Ref sig .tc := ⟨.hbm, 123, rfl⟩
abbrev main_c_19 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_cst_22 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_24 : Ref sig .tc := ⟨.hbm, 152, rfl⟩
abbrev main_v104 : Ref sig .tc := ⟨.hbm, 153, rfl⟩
abbrev main_v105 : Ref sig .tc := ⟨.hbm, 154, rfl⟩
abbrev main_c_25 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_26 : Ref sig .tc := ⟨.hbm, 161, rfl⟩
abbrev main_v111 : Ref sig .tc := ⟨.hbm, 162, rfl⟩
abbrev main_v112 : Ref sig .tc := ⟨.hbm, 163, rfl⟩
abbrev main_c_27 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S640000x1_S640000x128_1_0_n_n_0_1_1128_wf : GatherDims.WF S100000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel program's run with its result named.

  The program is eleven segments: six stretches of host operations with five tiled kernels between them.  The
  generated frame proves that every weakly fair execution of the whole program ends, nothing faulting, with every
  unscoped buffer of a core holding the contents the fold of the segments computes from the launch memory.  Here the
  same launch is read once more at the result buffer: after the run it holds the fold's value at that buffer, and the
  argument arrays are as launched.
-/
import proofs.«166278_j11192684773891_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the value the fold of its segments
    gives it and the arguments as launched. -/
theorem run : θ_run defs (onTc (τ := τ) (main (F := F))) ⟨m, fun _ => 0, ρ⟩ (fun r => ∀ c : Dev nD,
      r.2.mem ((c.tc : Thread nD τ).loc main_v111) = W11 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v111 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c)⟩)

end Cert.KernelIdeal.ResultRun

end
-- ==== Proof.LibDotIndex.lean ====
/-
  The contraction index of a rows-by-columns product, made an ordinary column index.

  For operands of shapes [A, K] and [K, B] whose dimension numbers say "no batch axes, the left operand's axis 0 and
  the right operand's axis 1 are kept, axis 1 of the left is contracted against axis 0 of the right", the contraction's
  own index set has one axis of extent K. Summing over it is summing over `Fin K`: at the result entry (p, q) and the
  contraction position k the left operand is read at (p, k) and the right operand at (k, q).
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- The left operand is read at row p of the result entry and at the contraction position. -/
theorem lhs_at (hlb : d.lhsBatch = []) (hln : d.lhsNonContracting = [0]) (hlc : d.lhsContracting = [1])
    (hr : d.contr.rank = 1) (hs : d.contr.size ⟨0, by omega⟩ = K) (p : Fin A) (q : Fin B) (k : Fin K) :
    d.lhsIdx (ix2 p q) ((contrEquiv1 d K hr hs).symm k) = ix2 p k := by
  funext a
  apply Fin.ext
  match a with
  | ⟨0, _⟩ =>
    show (d.lhsIdx (ix2 p q) ((contrEquiv1 d K hr hs).symm k) 0).val = p.val
    have key : ∀ (n : Nat) (h : n < (⟨2, ![A, B]⟩ : Shape).rank), n = 0 →
        ((ix2 p q : (⟨2, ![A, B]⟩ : Shape).Idx) ⟨n, h⟩).val = p.val := by
      intro n h e; subst e; rfl
    unfold DotDims.lhsIdx
    rw [dif_neg (by simp [hlb]), dif_pos (by simp [hln])]
    simp only [Fin.val_cast]
    exact key _ _ (by simp [hlb, hln])
  | ⟨1, _⟩ =>
    show (d.lhsIdx (ix2 p q) ((contrEquiv1 d K hr hs).symm k) 1).val = k.val
    rw [d.lhsIdx_val_of_single hlc]
    exact contrEquiv1_symm_val d K hr hs k

/-- The right operand is read at the contraction position and at column q of the result entry. -/
theorem rhs_at (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin A) (q : Fin B) (k : Fin K) :
    d.rhsIdx (ix2 p q) ((contrEquiv1 d K hr hs).symm k) = ix2 k q := by
  funext a
  apply Fin.ext
  match a with
  | ⟨0, _⟩ =>
    show (d.rhsIdx (ix2 p q) ((contrEquiv1 d K hr hs).symm k) 0).val = k.val
    rw [d.rhsIdx_val_of_single hrc]
    exact contrEquiv1_symm_val d K hr hs k
  | ⟨1, _⟩ =>
    show (d.rhsIdx (ix2 p q) ((contrEquiv1 d K hr hs).symm k) 1).val = q.val
    have key : ∀ (n : Nat) (h : n < (⟨2, ![A, B]⟩ : Shape).rank), n = 1 →
        ((ix2 p q : (⟨2, ![A, B]⟩ : Shape).Idx) ⟨n, h⟩).val = q.val := by
      intro n h e; subst e; rfl
    unfold DotDims.rhsIdx
    rw [dif_neg (by simp [hrb]), dif_pos (by simp [hrn])]
    simp only [Fin.val_cast]
    exact key _ _ (by simp [hlb, hln, hrn])

/-- The sum over the contraction's index set is the sum over the columns of the left operand. -/
theorem sum_eq {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    (∑ k : d.contr.Idx, (x (d.lhsIdx (ix2 p q) k) : EReal) * (y (d.rhsIdx (ix2 p q) k) : EReal))
      = ∑ k : Fin K, (x (ix2 p k) : EReal) * (y (ix2 k q) : EReal) := by
  rw [← Equiv.sum_comp (contrEquiv1 d K hr hs).symm]
  refine Finset.sum_congr rfl fun k _ => ?_
  rw [lhs_at d hlb hln hlc hr hs p q k, rhs_at d hlb hln hrb hrn hrc hr hs p q k]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«166278_j11192684773891_2_alg».proof.Proof.LibDotIndex

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«166278_j11192684773891_2_alg».proof.Proof.LibDotSums
import proofs.«166278_j11192684773891_2_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.LibRectLayers.lean ====
/-
  Rectified dense layers read entry by entry at the exact values, in the form a kernel tile computes them and in the
  form a host program computes them, for any extents, any rows-by-columns dimension record, any operand formats.

  Over the extended reals a float is an exact number, a change of float format is the identity and a matrix product
  carries no rounding and no order of summation. So

    a rectified affine layer   max (x · W + b, 0)   has, at row p and column q, the value
        max ((∑ k, x (p, k) · W (k, q)) + b q, 0);

    a rectified two-product layer   max (a · Wl + h · Wr + b, 0)   has the value
        max (((∑ k, a (p, k) · Wl (k, q)) + ∑ k, h (p, k) · Wr (k, q)) + b q, 0),
      whether the bias is added after both products (a tile) or between them (the host): addition of extended reals is
      commutative and associative, infinities included, so  (s + b) + t = (s + t) + b  with no finiteness needed.

  Entry (p, q) of either layer reads row p of the row operands only (`dense_congr`, `combine_congr`): a block of rows
  of the layer of whole arrays is the layer of that block of rows — what a kernel tiled over rows needs to go from the
  blocks its grid points write to the whole result array.
-/
import proofs.«166278_j11192684773891_2_alg».proof.Proof.LibDenseLayer

open scoped BigOperators

noncomputable section

namespace Cert.RectLayers

open Idealize.ShloMosaic Idealize.ShloMosaic.ValueIdx Cert.DenseLayer

/-- The rectifier: the larger of the entry and the number of the zero word. -/
def rect (z : EReal) : EReal := max z (Ideal.ofBits .f32 0x00000000#32)

variable {A K B : ℕ}

/-- The input layer over A rows: entry (p, q) is the rectified affine image of row p. -/
def dense (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => rect (affine (fun k => x (ix2 (i 0) k)) (fun k q => w (ix2 k q)) (fun q => b (ix1 q)) (i 1))

/-- One convolution layer over A rows: entry (p, q) is the rectified sum of row p of the aggregate against column q
    of the left weights, row p of the nodes' own features against column q of the right weights, and the bias. -/
def combine (a h : FVec Ideal ⟨2, ![A, K]⟩ .f32) (wl wr : FVec Ideal ⟨2, ![K, B]⟩ .f32) (b : FVec Ideal ⟨1, ![B]⟩ .f32) :
    FVec Ideal ⟨2, ![A, B]⟩ .f32 :=
  fun i => rect (((∑ k : Fin K, (a (ix2 (i 0) k) : EReal) * (wl (ix2 k (i 1)) : EReal))
      + ∑ k : Fin K, (h (ix2 (i 0) k) : EReal) * (wr (ix2 k (i 1)) : EReal)) + (b (ix1 (i 1)) : EReal))

theorem dense_ix2 (x : FVec Ideal ⟨2, ![A, K]⟩ .f32) (w : FVec Ideal ⟨2, ![K, B]⟩ .f32) (b : FVec Ideal ⟨1, ![B]⟩ .f32)
    (p : Fin A) (q : Fin B) :
    dense x w b (ix2 p q)
      = rect (affine (fun k => x (ix2 p k)) (fun k q => w (ix2 k q)) (fun q => b (ix1 q)) q) := rfl

theorem combine_ix2 (a h : FVec Ideal ⟨2, ![A, K]⟩ .f32) (wl wr : FVec Ideal ⟨2, ![K, B]⟩ .f32)
    (b : FVec Ideal ⟨1, ![B]⟩ .f32) (p : Fin A) (q : Fin B) :
    combine a h wl wr b (ix2 p q)
      = rect (((∑ k : Fin K, (a (ix2 p k) : EReal) * (wl (ix2 k q) : EReal))
          + ∑ k : Fin K, (h (ix2 p k) : EReal) * (wr (ix2 k q) : EReal)) + (b (ix1 q) : EReal)) := rfl

section Rows

variable {A' : ℕ}

/-- Entry i of the input layer over one array is entry i' of it over another when row (i 0) of the one is row (i' 0)
    of the other, the weights and the bias agree entry by entry, and the two columns are the same. -/
theorem dense_congr (x : FVec Ideal ⟨2, ![A, K]⟩ .f32) (x' : FVec Ideal ⟨2, ![A', K]⟩ .f32)
    (w w' : FVec Ideal ⟨2, ![K, B]⟩ .f32) (b b' : FVec Ideal ⟨1, ![B]⟩ .f32)
    (i : (⟨2, ![A, B]⟩ : Shape).Idx) (i' : (⟨2, ![A', B]⟩ : Shape).Idx)
    (hx : ∀ k : Fin K, x (ix2 (i 0) k) = x' (ix2 (i' 0) k))
    (hw : ∀ (k : Fin K) (q : Fin B), w (ix2 k q) = w' (ix2 k q)) (hb : ∀ q : Fin B, b (ix1 q) = b' (ix1 q))
    (hq : (i 1).val = (i' 1).val) : dense x w b i = dense x' w' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have hx' : ∀ k : Fin K, x (ix2 p k) = x' (ix2 p' k) := hx
  rw [dense_ix2, dense_ix2]
  unfold affine
  simp only [hx', hw, hb]

/-- The same for a convolution layer: rows (i 0) of the aggregate and of the nodes' own features. -/
theorem combine_congr (a h : FVec Ideal ⟨2, ![A, K]⟩ .f32) (a' h' : FVec Ideal ⟨2, ![A', K]⟩ .f32)
    (wl wr wl' wr' : FVec Ideal ⟨2, ![K, B]⟩ .f32) (b b' : FVec Ideal ⟨1, ![B]⟩ .f32)
    (i : (⟨2, ![A, B]⟩ : Shape).Idx) (i' : (⟨2, ![A', B]⟩ : Shape).Idx)
    (ha : ∀ k : Fin K, a (ix2 (i 0) k) = a' (ix2 (i' 0) k)) (hh : ∀ k : Fin K, h (ix2 (i 0) k) = h' (ix2 (i' 0) k))
    (hwl : ∀ (k : Fin K) (q : Fin B), wl (ix2 k q) = wl' (ix2 k q))
    (hwr : ∀ (k : Fin K) (q : Fin B), wr (ix2 k q) = wr' (ix2 k q)) (hb : ∀ q : Fin B, b (ix1 q) = b' (ix1 q))
    (hq : (i 1).val = (i' 1).val) : combine a h wl wr b i = combine a' h' wl' wr' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have ha' : ∀ k : Fin K, a (ix2 p k) = a' (ix2 p' k) := ha
  have hh' : ∀ k : Fin K, h (ix2 p k) = h' (ix2 p' k) := hh
  rw [combine_ix2, combine_ix2]
  simp only [ha', hh', hwl, hwr, hb]

end Rows

section Forms

variable {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- The input layer as a tile computes it: the matrix unit's product into the zero tile, the bias recast to one row
    and repeated down the rows, the larger of that and the splat zero. -/
theorem tile_dense_apply (x : FVec Ideal ⟨2, ![A, K]⟩ φ₁) (w : FVec Ideal ⟨2, ![K, B]⟩ φ₂) (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (matmul d prec x w (constant ⟨2, ![A, B]⟩ .f32 0x00000000#32))
        (broadcastTo ⟨2, ![A, B]⟩ (shapeCast ⟨2, ![1, B]⟩ c h1) h2))
      (broadcast ⟨2, ![A, B]⟩ (Scalar.ofBits (F := Ideal) .f32 0x00000000#32)) (ix2 p q)
      = rect (affine (fun k => x (ix2 p k)) (fun k q => w (ix2 k q)) (fun q => c (ix1 q)) q) := by
  show max (addf (matmul d prec x w (constant ⟨2, ![A, B]⟩ .f32 0x00000000#32))
        (broadcastTo ⟨2, ![A, B]⟩ (shapeCast ⟨2, ![1, B]⟩ c h1) h2) (ix2 p q)) (Ideal.ofBits .f32 0x00000000#32) = _
  rw [tile_affine_apply d hlb hln hlc hrb hrn hrc hr hs prec x w c h1 h2 p q]
  rfl

/-- The input layer as the host computes it: the general product, the bias placed by two broadcasts, the larger of
    that and the rank-0 zero broadcast over the shape. -/
theorem host_dense_apply (x : FVec Ideal ⟨2, ![A, K]⟩ φ₁) (w : FVec Ideal ⟨2, ![K, B]⟩ φ₂) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (Host.dotGeneral d prec x w)
        (broadcastInDim ⟨2, ![A, B]⟩ ![0, 1] h2 (broadcastInDim ⟨2, ![1, B]⟩ ![1] h1 c)))
      (broadcastInDim ⟨2, ![A, B]⟩ dims h0 (constant (F := Ideal) ⟨0, ![]⟩ .f32 0x00000000#32)) (ix2 p q)
      = rect (affine (fun k => x (ix2 p k)) (fun k q => w (ix2 k q)) (fun q => c (ix1 q)) q) := by
  show max (addf (Host.dotGeneral d prec x w)
        (broadcastInDim ⟨2, ![A, B]⟩ ![0, 1] h2 (broadcastInDim ⟨2, ![1, B]⟩ ![1] h1 c)) (ix2 p q))
      (broadcastInDim ⟨2, ![A, B]⟩ dims h0 (constant (F := Ideal) ⟨0, ![]⟩ .f32 0x00000000#32) (ix2 p q)) = _
  rw [host_affine_apply d hlb hln hlc hrb hrn hrc hr hs prec x w c h1 h2 p q, scalar_apply]
  rfl

/-- A convolution layer as a tile computes it: the two products into zero tiles added, then the bias row, then the
    rectifier. -/
theorem tile_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (addf (matmul d prec a wl (constant ⟨2, ![A, B]⟩ .f32 0x00000000#32))
          (matmul d prec h wr (constant ⟨2, ![A, B]⟩ .f32 0x00000000#32)))
        (broadcastTo ⟨2, ![A, B]⟩ (shapeCast ⟨2, ![1, B]⟩ c h1) h2))
      (broadcast ⟨2, ![A, B]⟩ (Scalar.ofBits (F := Ideal) .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((matmul d prec a wl (constant ⟨2, ![A, B]⟩ .f32 0x00000000#32) (ix2 p q)
        + matmul d prec h wr (constant ⟨2, ![A, B]⟩ .f32 0x00000000#32) (ix2 p q))
        + broadcastTo ⟨2, ![A, B]⟩ (shapeCast ⟨2, ![1, B]⟩ c h1) h2 (ix2 p q)) (Ideal.ofBits .f32 0x00000000#32) = _
  rw [tile_product_apply d hlb hln hlc hrb hrn hrc hr hs prec a wl p q,
    tile_product_apply d hlb hln hlc hrb hrn hrc hr hs prec h wr p q, broadcastTo_1b_ab_apply, shapeCast_a_1a_apply]
  rfl

/-- A convolution layer as the host computes it: the aggregate's product, the bias placed by two broadcasts, then the
    nodes' own product, then the rectifier. The bias is moved past the second product by commutativity and
    associativity of the extended reals' addition. -/
theorem host_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (addf (Host.dotGeneral d prec a wl)
          (broadcastInDim ⟨2, ![A, B]⟩ ![0, 1] h2 (broadcastInDim ⟨2, ![1, B]⟩ ![1] h1 c)))
        (Host.dotGeneral d prec h wr))
      (broadcastInDim ⟨2, ![A, B]⟩ dims h0 (constant (F := Ideal) ⟨0, ![]⟩ .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((Host.dotGeneral d prec a wl (ix2 p q)
        + broadcastInDim ⟨2, ![A, B]⟩ ![0, 1] h2 (broadcastInDim ⟨2, ![1, B]⟩ ![1] h1 c) (ix2 p q))
        + Host.dotGeneral d prec h wr (ix2 p q))
      (broadcastInDim ⟨2, ![A, B]⟩ dims h0 (constant (F := Ideal) ⟨0, ![]⟩ .f32 0x00000000#32) (ix2 p q)) = _
  rw [host_product_apply d hlb hln hlc hrb hrn hrc hr hs prec a wl p q,
    host_product_apply d hlb hln hlc hrb hrn hrc hr hs prec h wr p q, Cert.BiasRow.down_apply, Cert.BiasRow.row_apply,
    scalar_apply, add_right_comm]
  rfl

end Forms

end Cert.RectLayers

end
-- ==== Proof.LibColumn.lean ====
/-
  A vector as a column, read at an index.

  A vector [a] recast, or placed by a broadcast, as the one column of [a, 1] reads its entry of the row; a column [a, 1]
  repeated across b columns reads, at (p, q), its entry of row p. (A broadcast reads the operand's unit axes at
  coordinate zero and its other axes at the result's coordinate on the axis they are sent to; a recast keeps the
  row-major position.)
-/
import Idealize.ShloMosaic.Lib.ValueIdx
import Idealize.ShloMosaic.Lib.Pipeline.Value

noncomputable section

namespace Cert.Column

open Idealize.ShloMosaic Idealize.ShloMosaic.ValueIdx

variable {α : Type}

/-- A vector [a] recast to the column [a, 1] reads, at (i, u), its entry i. -/
theorem cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [a] placed by a broadcast as the column [a, 1] reads, at (i, u), its entry i. -/
theorem place_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column [a, 1] repeated across b columns (a tile's broadcast) reads, at (p, q), the column's entry p. -/
theorem across_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A column [a, 1] repeated across b columns by the host's broadcast reads, at (p, q), the column's entry p. -/
theorem host_across_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

end Cert.Column

end
-- ==== Proof.LibMeanConv.lean ====
/-
  The mathematics shared by the two programs: a mean-aggregating graph convolution over two node sets, twice, and an
  edge decoder.

  Over the extended reals a float is an exact number and a change of float format is the identity.

  One convolution layer.  Its inputs are the per-node SUM `s` of the neighbours' features, a per-node column `r`
  that holds the reciprocal of the neighbour count (the count replaced by one where it is smaller than one), the
  nodes' own features `h`, two weight matrices and a bias row.  Entry (p, q) of the result is

      act ( (∑ k, (s (p, k) · r p) · Wl (k, q)) + (∑ k, h (p, k) · Wr (k, q)) + b q ),

  with `act` the rectifier in the first layer and the identity in the second.  One program multiplies the sum by
  the reciprocal column, the other divides the sum by the count; the two agree because dividing by a number that is
  not zero IS multiplying by its reciprocal (`div_eq_mul_recip`), at the infinities too, and the larger of anything
  and one is never zero (`max_one_ne_zero`).  Nothing about the count itself is needed, and nothing about finiteness.

  The decoder.  Entry p of the result is

      (∑ k, rect ((∑ j, zu (p, j) · Wa (j, k)) + (∑ j, zi (p, j) · Wb (j, k)) + b1 k) · w2 k) + b2,

  where one program multiplies the two gathered feature rows by the two halves of the first weight matrix and the
  other joins the rows side by side and multiplies by the whole matrix: a sum over 2·K positions is the sum over
  the first K plus the sum over the last K.
-/
import proofs.«166278_j11192684773891_2_alg».proof.Proof.LibRectLayers
import proofs.«166278_j11192684773891_2_alg».proof.Proof.LibColumn
import Idealize.ShloMosaic.Lib.ValueLayout
import Idealize.ShloMosaic.Lib.Pipeline.Value

open scoped BigOperators

noncomputable section

namespace Cert.MeanConv

open Idealize.ShloMosaic Idealize.ShloMosaic.ValueIdx Cert.DenseLayer Cert.RectLayers

/-- The larger of any extended real and the number one is not zero. -/
theorem max_one_ne_zero (a : EReal) : max a (Ideal.ofBits .f32 0x3F800000#32) ≠ 0 := by
  rw [one_word]
  exact ne_of_gt (lt_of_lt_of_le zero_lt_one (le_max_right a 1))

/-- Dividing by a number that is not zero is multiplying by its reciprocal, for every extended real dividend. -/
theorem div_eq_mul_recip (x y : EReal) (hy : y ≠ 0) :
    Ideal.div x y = x * Ideal.div (Ideal.ofBits .f32 0x3F800000#32) y := by
  rw [one_word]
  unfold Ideal.div
  rw [if_neg hy, if_neg hy, one_mul]

variable {A K B : ℕ}

/-- One convolution layer over A nodes, entry by entry: the neighbour sum scaled by the reciprocal column against the
    left weights, the nodes' own features against the right weights, the bias row, then `act`. -/
def conv (act : EReal → EReal) (s : FVec Ideal ⟨2, ![A, K]⟩ .f32) (r : FVec Ideal ⟨2, ![A, 1]⟩ .f32)
    (h : FVec Ideal ⟨2, ![A, K]⟩ .f32) (wl wr : FVec Ideal ⟨2, ![K, B]⟩ .f32) (b : FVec Ideal ⟨2, ![1, B]⟩ .f32) :
    FVec Ideal ⟨2, ![A, B]⟩ .f32 :=
  fun i => act (((∑ k : Fin K, ((s (ix2 (i 0) k) : EReal) * (r (ix2 (i 0) (0 : Fin 1)) : EReal)) * (wl (ix2 k (i 1)) : EReal))
      + ∑ k : Fin K, (h (ix2 (i 0) k) : EReal) * (wr (ix2 k (i 1)) : EReal)) + (b (ix2 (0 : Fin 1) (i 1)) : EReal))

theorem conv_ix2 (act : EReal → EReal) (s : FVec Ideal ⟨2, ![A, K]⟩ .f32) (r : FVec Ideal ⟨2, ![A, 1]⟩ .f32)
    (h : FVec Ideal ⟨2, ![A, K]⟩ .f32) (wl wr : FVec Ideal ⟨2, ![K, B]⟩ .f32) (b : FVec Ideal ⟨2, ![1, B]⟩ .f32)
    (p : Fin A) (q : Fin B) :
    conv act s r h wl wr b (ix2 p q)
      = act (((∑ k : Fin K, ((s (ix2 p k) : EReal) * (r (ix2 p (0 : Fin 1)) : EReal)) * (wl (ix2 k q) : EReal))
          + ∑ k : Fin K, (h (ix2 p k) : EReal) * (wr (ix2 k q) : EReal)) + (b (ix2 (0 : Fin 1) q) : EReal)) := rfl

/-- The decoder over A edges, entry by entry. -/
def decode (zu zi : FVec Ideal ⟨2, ![A, K]⟩ .f32) (wa wb : FVec Ideal ⟨2, ![K, B]⟩ .f32)
    (b1 : FVec Ideal ⟨2, ![1, B]⟩ .f32) (w2 : FVec Ideal ⟨2, ![B, 1]⟩ .f32) (b2 : FVec Ideal ⟨2, ![1, 1]⟩ .f32) :
    FVec Ideal ⟨2, ![A, 1]⟩ .f32 :=
  fun i => (∑ k : Fin B, rect (((∑ j : Fin K, (zu (ix2 (i 0) j) : EReal) * (wa (ix2 j k) : EReal))
        + ∑ j : Fin K, (zi (ix2 (i 0) j) : EReal) * (wb (ix2 j k) : EReal)) + (b1 (ix2 (0 : Fin 1) k) : EReal))
      * (w2 (ix2 k (0 : Fin 1)) : EReal)) + (b2 (ix2 (0 : Fin 1) (0 : Fin 1)) : EReal)

theorem decode_ix2 (zu zi : FVec Ideal ⟨2, ![A, K]⟩ .f32) (wa wb : FVec Ideal ⟨2, ![K, B]⟩ .f32)
    (b1 : FVec Ideal ⟨2, ![1, B]⟩ .f32) (w2 : FVec Ideal ⟨2, ![B, 1]⟩ .f32) (b2 : FVec Ideal ⟨2, ![1, 1]⟩ .f32)
    (p : Fin A) (u : Fin 1) :
    decode zu zi wa wb b1 w2 b2 (ix2 p u)
      = (∑ k : Fin B, rect (((∑ j : Fin K, (zu (ix2 p j) : EReal) * (wa (ix2 j k) : EReal))
            + ∑ j : Fin K, (zi (ix2 p j) : EReal) * (wb (ix2 j k) : EReal)) + (b1 (ix2 (0 : Fin 1) k) : EReal))
          * (w2 (ix2 k (0 : Fin 1)) : EReal)) + (b2 (ix2 (0 : Fin 1) (0 : Fin 1)) : EReal) := rfl

section Rows

variable {A' : ℕ}

/-- Entry i of a convolution layer over one set of arrays is entry i' of it over another when rows (i 0) and (i' 0) of
    the row operands agree, the weights and the bias are the same, and the two columns are the same: a block of rows
    of the layer of whole arrays is the layer of that block of rows. -/
theorem conv_congr (act : EReal → EReal) (s h : FVec Ideal ⟨2, ![A, K]⟩ .f32) (r : FVec Ideal ⟨2, ![A, 1]⟩ .f32)
    (s' h' : FVec Ideal ⟨2, ![A', K]⟩ .f32) (r' : FVec Ideal ⟨2, ![A', 1]⟩ .f32)
    (wl wr : FVec Ideal ⟨2, ![K, B]⟩ .f32) (b : FVec Ideal ⟨2, ![1, B]⟩ .f32)
    (i : (⟨2, ![A, B]⟩ : Shape).Idx) (i' : (⟨2, ![A', B]⟩ : Shape).Idx)
    (hs : ∀ k : Fin K, s (ix2 (i 0) k) = s' (ix2 (i' 0) k)) (hh : ∀ k : Fin K, h (ix2 (i 0) k) = h' (ix2 (i' 0) k))
    (hr : r (ix2 (i 0) (0 : Fin 1)) = r' (ix2 (i' 0) (0 : Fin 1)))
    (hq : (i 1).val = (i' 1).val) : conv act s r h wl wr b i = conv act s' r' h' wl wr b i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have hs' : ∀ k : Fin K, s (ix2 p k) = s' (ix2 p' k) := hs
  have hh' : ∀ k : Fin K, h (ix2 p k) = h' (ix2 p' k) := hh
  have hr' : r (ix2 p (0 : Fin 1)) = r' (ix2 p' (0 : Fin 1)) := hr
  rw [conv_ix2, conv_ix2]
  simp only [hs', hh', hr']

/-- The same for the decoder: rows (i 0) of the two gathered feature arrays. -/
theorem decode_congr (zu zi : FVec Ideal ⟨2, ![A, K]⟩ .f32) (zu' zi' : FVec Ideal ⟨2, ![A', K]⟩ .f32)
    (wa wb : FVec Ideal ⟨2, ![K, B]⟩ .f32) (b1 : FVec Ideal ⟨2, ![1, B]⟩ .f32) (w2 : FVec Ideal ⟨2, ![B, 1]⟩ .f32)
    (b2 : FVec Ideal ⟨2, ![1, 1]⟩ .f32)
    (i : (⟨2, ![A, 1]⟩ : Shape).Idx) (i' : (⟨2, ![A', 1]⟩ : Shape).Idx)
    (hu : ∀ j : Fin K, zu (ix2 (i 0) j) = zu' (ix2 (i' 0) j)) (hi : ∀ j : Fin K, zi (ix2 (i 0) j) = zi' (ix2 (i' 0) j)) :
    decode zu zi wa wb b1 w2 b2 i = decode zu' zi' wa wb b1 w2 b2 i' := by
  obtain ⟨p, u, rfl⟩ : ∃ (p : Fin A) (u : Fin 1), i = ix2 p u := ⟨i 0, i 1, eq_ix2 i⟩
  obtain ⟨p', u', rfl⟩ : ∃ (p' : Fin A') (u' : Fin 1), i' = ix2 p' u' := ⟨i' 0, i' 1, eq_ix2 i'⟩
  have hu' : ∀ j : Fin K, zu (ix2 p j) = zu' (ix2 p' j) := hu
  have hi' : ∀ j : Fin K, zi (ix2 p j) = zi' (ix2 p' j) := hi
  rw [decode_ix2, decode_ix2]
  simp only [hu', hi']

end Rows

section HostConv

variable (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- A convolution layer before its rectifier as the host computes it: the neighbour sum DIVIDED by the count column
    (the count replaced by one where smaller) against the left weights, the bias placed by two broadcasts, then the
    own features against the right weights.  Dividing by the count is multiplying by its reciprocal, and the bias
    moves past the second product by commutativity and associativity of the extended reals' addition. -/
theorem host_conv_apply (s h : FVec Ideal ⟨2, ![A, K]⟩ .f32) (cnt : FVec Ideal ⟨1, ![A]⟩ .f32)
    (wl wr : FVec Ideal ⟨2, ![K, B]⟩ .f32) (bv : FVec Ideal ⟨1, ![B]⟩ .f32)
    (dims0 : Fin (⟨0, ![]⟩ : Shape).rank → Fin (⟨1, ![A]⟩ : Shape).rank)
    (h0 : (⟨0, ![]⟩ : Shape).BroadcastsInDim ⟨1, ![A]⟩ dims0)
    (hc1 : (⟨1, ![A]⟩ : Shape).BroadcastsInDim ⟨2, ![A, 1]⟩ ![0])
    (hc2 : (⟨2, ![A, 1]⟩ : Shape).BroadcastsInDim ⟨2, ![A, K]⟩ ![0, 1])
    (h1 : (⟨1, ![B]⟩ : Shape).BroadcastsInDim ⟨2, ![1, B]⟩ ![1])
    (h2 : (⟨2, ![1, B]⟩ : Shape).BroadcastsInDim ⟨2, ![A, B]⟩ ![0, 1])
    (hsc : (⟨1, ![B]⟩ : Shape).ShapeCasts ⟨2, ![1, B]⟩) (p : Fin A) (q : Fin B) :
    addf (addf (Host.dotGeneral d prec
            (Host.divf s (broadcastInDim ⟨2, ![A, K]⟩ ![0, 1] hc2 (broadcastInDim ⟨2, ![A, 1]⟩ ![0] hc1
              (maximumf cnt (broadcastInDim ⟨1, ![A]⟩ dims0 h0 (constant (F := Ideal) ⟨0, ![]⟩ .f32 0x3F800000#32)))))) wl)
          (broadcastInDim ⟨2, ![A, B]⟩ ![0, 1] h2 (broadcastInDim ⟨2, ![1, B]⟩ ![1] h1 bv)))
        (Host.dotGeneral d prec h wr) (ix2 p q)
      = conv id s
          (broadcastInDim ⟨2, ![A, 1]⟩ ![0] hc1
            (Host.divf (broadcastInDim ⟨1, ![A]⟩ dims0 h0 (constant (F := Ideal) ⟨0, ![]⟩ .f32 0x3F800000#32))
              (maximumf cnt (broadcastInDim ⟨1, ![A]⟩ dims0 h0 (constant (F := Ideal) ⟨0, ![]⟩ .f32 0x3F800000#32)))))
          h wl wr (shapeCast ⟨2, ![1, B]⟩ bv hsc) (ix2 p q) := by
  rw [conv_ix2]
  show (Host.dotGeneral d prec _ wl (ix2 p q) + broadcastInDim _ _ h2 _ (ix2 p q)) + Host.dotGeneral d prec h wr (ix2 p q) = _
  rw [host_product_apply d hlb hln hlc hrb hrn hrc hr hs prec _ wl p q,
    host_product_apply d hlb hln hlc hrb hrn hrc hr hs prec h wr p q, Cert.BiasRow.down_apply, Cert.BiasRow.row_apply,
    shapeCast_a_1a_apply, Cert.Column.place_apply, add_right_comm]
  show _ = ((∑ k : Fin K, _) + _) + _
  congr 2
  refine Finset.sum_congr rfl fun k _ => ?_
  show Ideal.div (s (ix2 p k)) (broadcastInDim _ _ hc2 _ (ix2 p k)) * _
      = (s (ix2 p k) * Ideal.div (broadcastInDim _ dims0 h0 _ (ix1 p)) (max (cnt (ix1 p)) (broadcastInDim _ dims0 h0 _ (ix1 p)))) * _
  rw [Cert.Column.host_across_apply, Cert.Column.place_apply]
  show Ideal.div _ (max (cnt (ix1 p)) (broadcastInDim _ dims0 h0 _ (ix1 p))) * _ = _
  rw [scalar_apply]
  exact congrArg (fun z : EReal => z * (wl (ix2 k q) : EReal))
    (div_eq_mul_recip (s (ix2 p k)) _ (max_one_ne_zero (cnt (ix1 p))))

/-- The same layer with the host's rectifier: the larger of that and the rank-0 zero broadcast over the shape. -/
theorem host_conv_rect_apply (s h : FVec Ideal ⟨2, ![A, K]⟩ .f32) (cnt : FVec Ideal ⟨1, ![A]⟩ .f32)
    (wl wr : FVec Ideal ⟨2, ![K, B]⟩ .f32) (bv : FVec Ideal ⟨1, ![B]⟩ .f32)
    (dims0 : Fin (⟨0, ![]⟩ : Shape).rank → Fin (⟨1, ![A]⟩ : Shape).rank)
    (h0 : (⟨0, ![]⟩ : Shape).BroadcastsInDim ⟨1, ![A]⟩ dims0)
    (hc1 : (⟨1, ![A]⟩ : Shape).BroadcastsInDim ⟨2, ![A, 1]⟩ ![0])
    (hc2 : (⟨2, ![A, 1]⟩ : Shape).BroadcastsInDim ⟨2, ![A, K]⟩ ![0, 1])
    (h1 : (⟨1, ![B]⟩ : Shape).BroadcastsInDim ⟨2, ![1, B]⟩ ![1])
    (h2 : (⟨2, ![1, B]⟩ : Shape).BroadcastsInDim ⟨2, ![A, B]⟩ ![0, 1])
    (hsc : (⟨1, ![B]⟩ : Shape).ShapeCasts ⟨2, ![1, B]⟩)
    (dimsz : Fin (⟨0, ![]⟩ : Shape).rank → Fin (⟨2, ![A, B]⟩ : Shape).rank)
    (hz : (⟨0, ![]⟩ : Shape).BroadcastsInDim ⟨2, ![A, B]⟩ dimsz) (p : Fin A) (q : Fin B) :
    maximumf (addf (addf (Host.dotGeneral d prec
            (Host.divf s (broadcastInDim ⟨2, ![A, K]⟩ ![0, 1] hc2 (broadcastInDim ⟨2, ![A, 1]⟩ ![0] hc1
              (maximumf cnt (broadcastInDim ⟨1, ![A]⟩ dims0 h0 (constant (F := Ideal) ⟨0, ![]⟩ .f32 0x3F800000#32)))))) wl)
          (broadcastInDim ⟨2, ![A, B]⟩ ![0, 1] h2 (broadcastInDim ⟨2, ![1, B]⟩ ![1] h1 bv)))
        (Host.dotGeneral d prec h wr))
      (broadcastInDim ⟨2, ![A, B]⟩ dimsz hz (constant (F := Ideal) ⟨0, ![]⟩ .f32 0x00000000#32)) (ix2 p q)
      = conv rect s
          (broadcastInDim ⟨2, ![A, 1]⟩ ![0] hc1
            (Host.divf (broadcastInDim ⟨1, ![A]⟩ dims0 h0 (constant (F := Ideal) ⟨0, ![]⟩ .f32 0x3F800000#32))
              (maximumf cnt (broadcastInDim ⟨1, ![A]⟩ dims0 h0 (constant (F := Ideal) ⟨0, ![]⟩ .f32 0x3F800000#32)))))
          h wl wr (shapeCast ⟨2, ![1, B]⟩ bv hsc) (ix2 p q) := by
  show max (addf (addf (Host.dotGeneral d prec _ wl) _) (Host.dotGeneral d prec h wr) (ix2 p q))
      (broadcastInDim ⟨2, ![A, B]⟩ dimsz hz (constant (F := Ideal) ⟨0, ![]⟩ .f32 0x00000000#32) (ix2 p q)) = _
  rw [host_conv_apply d hlb hln hlc hrb hrn hrc hr hs prec s h cnt wl wr bv dims0 h0 hc1 hc2 h1 h2 hsc p q, scalar_apply]
  rfl

end HostConv

section HostDecode

variable (d1 : DotDims ⟨2, ![A, K + K]⟩ ⟨2, ![K + K, B]⟩ ⟨2, ![A, B]⟩)
  (hlb1 : d1.lhsBatch = []) (hln1 : d1.lhsNonContracting = [0]) (hlc1 : d1.lhsContracting = [1])
  (hrb1 : d1.rhsBatch = []) (hrn1 : d1.rhsNonContracting = [1]) (hrc1 : d1.rhsContracting = [0])
  (hr1 : d1.contr.rank = 1) (hs1 : d1.contr.size ⟨0, by omega⟩ = K + K)
  (d2 : DotDims ⟨2, ![A, B]⟩ ⟨2, ![B, 1]⟩ ⟨2, ![A, 1]⟩)
  (hlb2 : d2.lhsBatch = []) (hln2 : d2.lhsNonContracting = [0]) (hlc2 : d2.lhsContracting = [1])
  (hrb2 : d2.rhsBatch = []) (hrn2 : d2.rhsNonContracting = [1]) (hrc2 : d2.rhsContracting = [0])
  (hr2 : d2.contr.rank = 1) (hs2 : d2.contr.size ⟨0, by omega⟩ = B) (prec : Option ContractPrecision)

include hlb1 hln1 hlc1 hrb1 hrn1 hrc1 hr1 hs1 hlb2 hln2 hlc2 hrb2 hrn2 hrc2 hr2 hs2

/-- The decoder as the host computes it: the two gathered feature arrays joined side by side against the whole first
    weight matrix, the bias, the rectifier, the second weights, the second bias.  A sum over K + K positions is the sum
    over the first K plus the sum over the last K, and the joined array reads the first array there and the second
    array here, as the two halves of the weight matrix do. -/
theorem host_decode_apply (zu zi : FVec Ideal ⟨2, ![A, K]⟩ .f32) (w : FVec Ideal ⟨2, ![K + K, B]⟩ .f32)
    (b1 : FVec Ideal ⟨1, ![B]⟩ .f32) (w2 : FVec Ideal ⟨2, ![B, 1]⟩ .f32) (b2 : FVec Ideal ⟨1, ![1]⟩ .f32)
    (hcat : Shape.Concatenates [(⟨2, ![A, K]⟩ : Shape), ⟨2, ![A, K]⟩] ⟨2, ![A, K + K]⟩ 1)
    (h1 : (⟨1, ![B]⟩ : Shape).BroadcastsInDim ⟨2, ![1, B]⟩ ![1])
    (h2 : (⟨2, ![1, B]⟩ : Shape).BroadcastsInDim ⟨2, ![A, B]⟩ ![0, 1])
    (dimsz : Fin (⟨0, ![]⟩ : Shape).rank → Fin (⟨2, ![A, B]⟩ : Shape).rank)
    (hz : (⟨0, ![]⟩ : Shape).BroadcastsInDim ⟨2, ![A, B]⟩ dimsz)
    (g1 : (⟨1, ![1]⟩ : Shape).BroadcastsInDim ⟨2, ![1, 1]⟩ ![1])
    (g2 : (⟨2, ![1, 1]⟩ : Shape).BroadcastsInDim ⟨2, ![A, 1]⟩ ![0, 1])
    (sl1 : (⟨2, ![K + K, B]⟩ : Shape).Slices ![0, 0] ⟨2, ![K, B]⟩)
    (sl2 : (⟨2, ![K + K, B]⟩ : Shape).Slices ![K, 0] ⟨2, ![K, B]⟩)
    (hsc1 : (⟨1, ![B]⟩ : Shape).ShapeCasts ⟨2, ![1, B]⟩) (hsc2 : (⟨1, ![1]⟩ : Shape).ShapeCasts ⟨2, ![1, 1]⟩)
    (p : Fin A) (u : Fin 1) :
    addf (Host.dotGeneral d2 prec
          (maximumf (addf (Host.dotGeneral d1 prec
                (concatenate ⟨2, ![A, K + K]⟩ 1 [⟨⟨2, ![A, K]⟩, zu⟩, ⟨⟨2, ![A, K]⟩, zi⟩] hcat) w)
              (broadcastInDim ⟨2, ![A, B]⟩ ![0, 1] h2 (broadcastInDim ⟨2, ![1, B]⟩ ![1] h1 b1)))
            (broadcastInDim ⟨2, ![A, B]⟩ dimsz hz (constant (F := Ideal) ⟨0, ![]⟩ .f32 0x00000000#32))) w2)
        (broadcastInDim ⟨2, ![A, 1]⟩ ![0, 1] g2 (broadcastInDim ⟨2, ![1, 1]⟩ ![1] g1 b2)) (ix2 p u)
      = decode zu zi (extractStridedSlice ⟨2, ![K, B]⟩ ![0, 0] w sl1) (extractStridedSlice ⟨2, ![K, B]⟩ ![K, 0] w sl2)
          (shapeCast ⟨2, ![1, B]⟩ b1 hsc1) w2 (shapeCast ⟨2, ![1, 1]⟩ b2 hsc2) (ix2 p u) := by
  obtain rfl : u = 0 := Subsingleton.elim _ _
  rw [decode_ix2]
  show Host.dotGeneral d2 prec _ w2 (ix2 p (0 : Fin 1)) + broadcastInDim _ _ g2 _ (ix2 p (0 : Fin 1)) = _
  rw [host_product_apply d2 hlb2 hln2 hlc2 hrb2 hrn2 hrc2 hr2 hs2 prec _ w2 p (0 : Fin 1), Cert.BiasRow.down_apply,
    Cert.BiasRow.row_apply, shapeCast_a_1a_apply]
  congr 1
  refine Finset.sum_congr rfl fun k _ => ?_
  congr 1
  show max (addf (Host.dotGeneral d1 prec _ w) (broadcastInDim _ _ h2 (broadcastInDim _ _ h1 b1)) (ix2 p k))
      (broadcastInDim ⟨2, ![A, B]⟩ dimsz hz (constant (F := Ideal) ⟨0, ![]⟩ .f32 0x00000000#32) (ix2 p k)) = _
  rw [host_affine_apply d1 hlb1 hln1 hlc1 hrb1 hrn1 hrc1 hr1 hs1 prec _ w b1 h1 h2 p k, scalar_apply, shapeCast_a_1a_apply]
  unfold affine rect
  rw [Fin.sum_univ_add]
  congr 3
  · refine Finset.sum_congr rfl fun j _ => ?_
    beta_reduce
    rw [concatenate_pair_apply_left (1 : Fin 2) zu zi hcat (ix2 p (Fin.castAdd K j)) rfl (ix2 p j)
        (fun b => by match b with | ⟨0, _⟩ => rfl | ⟨1, _⟩ => rfl),
      extractStridedSlice_apply ![0, 0] w sl1 (ix2 j k) (ix2 (Fin.castAdd K j) k)
        (fun a => by match a with | ⟨0, _⟩ => simp | ⟨1, _⟩ => simp)]
  · refine Finset.sum_congr rfl fun j _ => ?_
    beta_reduce
    rw [concatenate_pair_apply_right (1 : Fin 2) zu zi hcat (ix2 p (Fin.natAdd K j)) rfl rfl (ix2 p j)
        (fun b hb => by match b with | ⟨0, _⟩ => rfl | ⟨1, _⟩ => exact absurd rfl hb)
        (by show j.val + K = K + j.val; omega),
      extractStridedSlice_apply ![K, 0] w sl2 (ix2 j k) (ix2 (Fin.natAdd K j) k)
        (fun a => by match a with | ⟨0, _⟩ => (show K + j.val = K + j.val; rfl) | ⟨1, _⟩ => simp)]

end HostDecode

end Cert.MeanConv

end
-- ==== Proof.Net.lean ====
/-
  The network both programs compute, as functions of the argument arrays at the exact values.

  A two-layer graph convolution over users and items followed by an edge decoder:

    for every edge e from user u(e) to item i(e) (negative endpoints wrapped once, as array indexing does),
      sumAtItems X  = per item, the sum over its edges of row u(e) of X          (a take of rows, then a scatter-add)
      sumAtUsers X  = per user, the sum over its edges of row i(e) of X
      recipAtItems  = per item, one over the larger of its edge count and one, as a column (the same for users)

    hItem = conv rect (sumAtItems xUser) recipAtItems xItem W W b       hUser = conv rect (sumAtUsers xItem) recipAtUsers xUser W W b
    zItem = conv id   (sumAtItems hUser) recipAtItems hItem W W b       zUser = conv id   (sumAtUsers hItem) recipAtUsers hUser W W b
    scores = decode (rows of zUser at the label edges' users) (rows of zItem at their items) (the two halves of W1) b1 W2 b2
    result = scores as a vector.
-/
import proofs.«166278_j11192684773891_2_alg».proof.Proof.Gen.KernelIdeal
import proofs.«166278_j11192684773891_2_alg».proof.Proof.LibMeanConv

noncomputable section

namespace Cert.KernelIdeal.Net

open Cert.KernelIdeal Cert.KernelIdeal.Gen Cert.MeanConv Cert.RectLayers
open Idealize.ShloMosaic Idealize.ShloMosaic.TcCoe Idealize.ShloMosaic.ValueIdx

/-- A float array of a shape, and an index array of a shape, at the exact values. -/
abbrev Arr (S : Shape) : Type := (⟨S, .f32⟩ : BufTy).Contents (Elt Ideal)
abbrev Ids (S : Shape) : Type := (⟨S, .i32⟩ : BufTy).Contents (Elt Ideal)

/-! ## The host stretches' functions -/

/-- Edge endpoints that index the 100000 users, a negative one wrapped once, as a column. -/
def userCol (x : Ids S640000) : Ids S640000x1 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 100000#32))) x)

/-- Edge endpoints that index the 50000 items, a negative one wrapped once, as a column. -/
def itemCol (x : Ids S640000) : Ids S640000x1 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 50000#32))) x)

/-- Edge endpoints as a column, as the scatter takes them. -/
def edgeCol (x : Ids S640000) : Ids S640000x1 := broadcastInDim S640000x1 ![0] bcast_S640000_S640000x1_0 x

/-- Per item, the sum over its edges of the source user's row of `X` (the rows pass through the narrow format and
    back, the identity at the exact values). -/
def sumAtItems (X : Arr S100000x128) (u i : Ids S640000) : Arr S50000x128 :=
  Host.scatterAdd scatter_S50000x128_S640000x1_S640000x128_1_0_0_1
    (broadcastInDim S50000x128 ![] bcast_S_S50000x128 (constant (F := Ideal) S_ .f32 0x00000000#32)) (edgeCol i)
    (extf .f32 (Host.gather gather_S100000x128_S640000x1_S640000x128_1_0_n_n_0_1_1128
      (truncf .bf16 X bitsLt_bf16_f32) (userCol u)) bitsLt_bf16_f32)

/-- Per user, the sum over its edges of the source item's row of `X`. -/
def sumAtUsers (X : Arr S50000x128) (u i : Ids S640000) : Arr S100000x128 :=
  Host.scatterAdd scatter_S100000x128_S640000x1_S640000x128_1_0_0_1
    (broadcastInDim S100000x128 ![] bcast_S_S100000x128 (constant (F := Ideal) S_ .f32 0x00000000#32)) (edgeCol u)
    (extf .f32 (Host.gather gather_S50000x128_S640000x1_S640000x128_1_0_n_n_0_1_1128
      (truncf .bf16 X bitsLt_bf16_f32) (itemCol i)) bitsLt_bf16_f32)

/-- Per item, one over the larger of its edge count and one, as a column. -/
def recipAtItems (i : Ids S640000) : Arr S50000x1 :=
  broadcastInDim S50000x1 ![0] bcast_S50000_S50000x1_0
    (Host.divf (broadcastInDim S50000 ![] bcast_S_S50000 (constant (F := Ideal) S_ .f32 0x3F800000#32))
      (maximumf (Host.scatterAdd scatter_S50000_S640000x1_S640000_n_0_0_1
          (broadcastInDim S50000 ![] bcast_S_S50000 (constant (F := Ideal) S_ .f32 0x00000000#32)) (edgeCol i)
          (broadcastInDim S640000 ![] bcast_S_S640000 (constant (F := Ideal) S_ .f32 0x3F800000#32)))
        (broadcastInDim S50000 ![] bcast_S_S50000 (constant (F := Ideal) S_ .f32 0x3F800000#32))))

/-- Per user, one over the larger of its edge count and one, as a column. -/
def recipAtUsers (u : Ids S640000) : Arr S100000x1 :=
  broadcastInDim S100000x1 ![0] bcast_S100000_S100000x1_0
    (Host.divf (broadcastInDim S100000 ![] bcast_S_S100000 (constant (F := Ideal) S_ .f32 0x3F800000#32))
      (maximumf (Host.scatterAdd scatter_S100000_S640000x1_S640000_n_0_0_1
          (broadcastInDim S100000 ![] bcast_S_S100000 (constant (F := Ideal) S_ .f32 0x00000000#32)) (edgeCol u)
          (broadcastInDim S640000 ![] bcast_S_S640000 (constant (F := Ideal) S_ .f32 0x3F800000#32)))
        (broadcastInDim S100000 ![] bcast_S_S100000 (constant (F := Ideal) S_ .f32 0x3F800000#32))))

/-- A bias vector as one row. -/
def rowOf (b : Arr S128) : Arr S1x128 := shapeCast S1x128 b shapeCasts_S128_S1x128

variable (a0 : Arr S100000x128) (a1 : Arr S50000x128) (a2 a3 : Arr S128x128) (a4 : Arr S128)
  (a5 a6 : Arr S128x128) (a7 : Arr S128) (a8 a9 : Arr S128x128) (a10 : Arr S128) (a11 a12 : Arr S128x128) (a13 : Arr S128)
  (a14 : Arr S256x128) (a15 : Arr S128) (a16 : Arr S128x1) (a17 : Arr S1) (a18 a19 : Ids S640000) (a20 a21 : Ids S200000)

/-! ## The network -/

def hItem : Arr S50000x128 :=
  conv (A := 50000) (K := 128) (B := 128) rect (sumAtItems a0 a18 a19) (recipAtItems a19) a1 a2 a3 (rowOf a4)
def hUser : Arr S100000x128 :=
  conv (A := 100000) (K := 128) (B := 128) rect (sumAtUsers a1 a18 a19) (recipAtUsers a18) a0 a5 a6 (rowOf a7)
def zItem : Arr S50000x128 :=
  conv (A := 50000) (K := 128) (B := 128) id (sumAtItems (hUser a0 a1 a5 a6 a7 a18 a19) a18 a19) (recipAtItems a19)
    (hItem a0 a1 a2 a3 a4 a18 a19) a8 a9 (rowOf a10)
def zUser : Arr S100000x128 :=
  conv (A := 100000) (K := 128) (B := 128) id (sumAtUsers (hItem a0 a1 a2 a3 a4 a18 a19) a18 a19) (recipAtUsers a18)
    (hUser a0 a1 a5 a6 a7 a18 a19) a11 a12 (rowOf a13)

/-- The label edges' users, a negative one wrapped once, as a column; and their items. -/
def labelUserCol (x : Ids S200000) : Ids S200000x1 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 100000#32))) x)
def labelItemCol (x : Ids S200000) : Ids S200000x1 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 50000#32))) x)

def scores : Arr S200000x1 :=
  decode (A := 200000) (K := 128) (B := 128)
    (Host.gather gather_S100000x128_S200000x1_S200000x128_1_0_n_n_0_1_1128
      (zUser a0 a1 a2 a3 a4 a5 a6 a7 a11 a12 a13 a18 a19) (labelUserCol a20))
    (Host.gather gather_S50000x128_S200000x1_S200000x128_1_0_n_n_0_1_1128
      (zItem a0 a1 a2 a3 a4 a5 a6 a7 a8 a9 a10 a18 a19) (labelItemCol a21))
    (extractStridedSlice S128x128 ![0, 0] a14 slices_S256x128_S128x128_0_0)
    (extractStridedSlice S128x128 ![128, 0] a14 slices_S256x128_S128x128_128_0)
    (shapeCast S1x128 a15 shapeCasts_S128_S1x128) a16 (shapeCast S1x1 a17 shapeCasts_S1_S1x1)

def result : Arr S200000 :=
  shapeCast S200000 (scores a0 a1 a2 a3 a4 a5 a6 a7 a8 a9 a10 a11 a12 a13 a14 a15 a16 a17 a18 a19 a20 a21)
    shapeCasts_S200000x1_S200000

end Cert.KernelIdeal.Net

end
-- ==== Proof.Trace.lean ====
/-
  What each segment of the idealized kernel program leaves alone.

  The program's buffers are numbered in program order: the 22 arguments first, then every operation's result.  A
  stretch of host operations writes a contiguous range of those numbers and nothing else, so a buffer whose number is
  outside the range holds after the stretch what it held before.  A tiled kernel writes back only its one output
  array; each input array ends as it was entered and every other buffer is untouched.  Chaining these facts from the
  launch gives: at every segment boundary each argument array is as launched, and each layer's output array is, at
  every later boundary where it is read, what its kernel left.
-/
import proofs.«166278_j11192684773891_2_alg».proof.Proof.Gen.KernelIdeal.Frame

set_option maxRecDepth 16384

noncomputable section

namespace Cert.KernelIdeal.Trace

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-- Host stretch 0 writes the buffers numbered 22 to 50 only. -/
theorem keepH0 (V : Valuation τ sig (Elt F)) (b : Ref sig .tc) (hb : b.idx.val < 22 ∨ 50 < b.idx.val) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

/-- Host stretch 1 writes the buffers numbered 52 to 80 only. -/
theorem keepH1 (V : Valuation τ sig (Elt F)) (b : Ref sig .tc) (hb : b.idx.val < 52 ∨ 80 < b.idx.val) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

/-- Host stretch 2 writes the buffers numbered 82 to 110 only. -/
theorem keepH2 (V : Valuation τ sig (Elt F)) (b : Ref sig .tc) (hb : b.idx.val < 82 ∨ 110 < b.idx.val) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

/-- Host stretch 3 writes the buffers numbered 112 to 140 only. -/
theorem keepH3 (V : Valuation τ sig (Elt F)) (b : Ref sig .tc) (hb : b.idx.val < 112 ∨ 140 < b.idx.val) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

/-- Host stretch 4 writes the buffers numbered 142 to 163 only. -/
theorem keepH4 (V : Valuation τ sig (Elt F)) (b : Ref sig .tc) (hb : b.idx.val < 142 ∨ 163 < b.idx.val) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

/-- Host stretch 5 writes the buffers numbered 165 to 165 only. -/
theorem keepH5 (V : Valuation τ sig (Elt F)) (b : Ref sig .tc) (hb : b.idx.val < 165 ∨ 165 < b.idx.val) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; revert hb; decide)))

variable (m : (ℓ : Loc nD τ sig) → Buf (Elt F) ℓ) (ρ : Dev nD → PrngReg)

/-- Kernel 0 writes back its output array only. -/
theorem keepR0 (c : Dev nD) (b : Ref sig .tc) (hb : b ≠ main_v22) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b (fun w e => h ⟨w, e⟩)

/-- Kernel 1 writes back its output array only. -/
theorem keepR1 (c : Dev nD) (b : Ref sig .tc) (hb : b ≠ main_v45) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; revert w; decide
    exact (W4_arr m ρ c w).trans (((dat1 (V3 m ρ) c).arrAt_in w hin _).trans (A_eq1 (V3 m ρ) c w))
  · exact W4_of_ne m ρ c b (fun w e => h ⟨w, e⟩)

/-- Kernel 2 writes back its output array only. -/
theorem keepR2 (c : Dev nD) (b : Ref sig .tc) (hb : b ≠ main_v68) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; revert w; decide
    exact (W6_arr m ρ c w).trans (((dat2 (V5 m ρ) c).arrAt_in w hin _).trans (A_eq2 (V5 m ρ) c w))
  · exact W6_of_ne m ρ c b (fun w e => h ⟨w, e⟩)

/-- Kernel 3 writes back its output array only. -/
theorem keepR3 (c : Dev nD) (b : Ref sig .tc) (hb : b ≠ main_v91) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      revert hb; revert w; decide
    exact (W8_arr m ρ c w).trans (((dat3 (V7 m ρ) c).arrAt_in w hin _).trans (A_eq3 (V7 m ρ) c w))
  · exact W8_of_ne m ρ c b (fun w e => h ⟨w, e⟩)

/-- Kernel 4 writes back its output array only. -/
theorem keepR4 (c : Dev nD) (b : Ref sig .tc) (hb : b ≠ main_v110) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      revert hb; revert w; decide
    exact (W10_arr m ρ c w).trans (((dat4 (V9 m ρ) c).arrAt_in w hin _).trans (A_eq4 (V9 m ρ) c w))
  · exact W10_of_ne m ρ c b (fun w e => h ⟨w, e⟩)

/-! ## The arguments at every boundary -/

theorem arg_ne (b : Ref sig .tc) (hb : b.idx.val < 22) (o : Ref sig .tc) (ho : 22 ≤ o.idx.val) : b ≠ o :=
  fun e => by subst e; omega

theorem arg_W1 (c : Dev nD) (b : Ref sig .tc) (hb : b.idx.val < 22) :
    W1 m ρ c (Proc.devRef .tc b) = m ((c : Thread nD τ).loc b) :=
  (keepH0 (W0 m ρ c) b (Or.inl hb)).trans rfl
theorem arg_W2 (c : Dev nD) (b : Ref sig .tc) (hb : b.idx.val < 22) :
    W2 m ρ c (Proc.devRef .tc b) = m ((c : Thread nD τ).loc b) :=
  (keepR0 m ρ c b (arg_ne b hb main_v22 (by decide))).trans (arg_W1 m ρ c b hb)
theorem arg_W3 (c : Dev nD) (b : Ref sig .tc) (hb : b.idx.val < 22) :
    W3 m ρ c (Proc.devRef .tc b) = m ((c : Thread nD τ).loc b) :=
  (keepH1 (W2 m ρ c) b (Or.inl (by omega))).trans (arg_W2 m ρ c b hb)
theorem arg_W4 (c : Dev nD) (b : Ref sig .tc) (hb : b.idx.val < 22) :
    W4 m ρ c (Proc.devRef .tc b) = m ((c : Thread nD τ).loc b) :=
  (keepR1 m ρ c b (arg_ne b hb main_v45 (by decide))).trans (arg_W3 m ρ c b hb)
theorem arg_W5 (c : Dev nD) (b : Ref sig .tc) (hb : b.idx.val < 22) :
    W5 m ρ c (Proc.devRef .tc b) = m ((c : Thread nD τ).loc b) :=
  (keepH2 (W4 m ρ c) b (Or.inl (by omega))).trans (arg_W4 m ρ c b hb)
theorem arg_W6 (c : Dev nD) (b : Ref sig .tc) (hb : b.idx.val < 22) :
    W6 m ρ c (Proc.devRef .tc b) = m ((c : Thread nD τ).loc b) :=
  (keepR2 m ρ c b (arg_ne b hb main_v68 (by decide))).trans (arg_W5 m ρ c b hb)
theorem arg_W7 (c : Dev nD) (b : Ref sig .tc) (hb : b.idx.val < 22) :
    W7 m ρ c (Proc.devRef .tc b) = m ((c : Thread nD τ).loc b) :=
  (keepH3 (W6 m ρ c) b (Or.inl (by omega))).trans (arg_W6 m ρ c b hb)
theorem arg_W8 (c : Dev nD) (b : Ref sig .tc) (hb : b.idx.val < 22) :
    W8 m ρ c (Proc.devRef .tc b) = m ((c : Thread nD τ).loc b) :=
  (keepR3 m ρ c b (arg_ne b hb main_v91 (by decide))).trans (arg_W7 m ρ c b hb)
theorem arg_W9 (c : Dev nD) (b : Ref sig .tc) (hb : b.idx.val < 22) :
    W9 m ρ c (Proc.devRef .tc b) = m ((c : Thread nD τ).loc b) :=
  (keepH4 (W8 m ρ c) b (Or.inl (by omega))).trans (arg_W8 m ρ c b hb)

/-! ## The layers' outputs where later segments read them -/

theorem v22_W3 (c : Dev nD) : W3 m ρ c (Proc.devRef .tc main_v22) = W2 m ρ c (Proc.devRef .tc main_v22) :=
  keepH1 (W2 m ρ c) main_v22 (by decide)
theorem v22_W4 (c : Dev nD) : W4 m ρ c (Proc.devRef .tc main_v22) = W2 m ρ c (Proc.devRef .tc main_v22) :=
  (keepR1 m ρ c main_v22 (by decide)).trans (v22_W3 m ρ c)
theorem v22_W5 (c : Dev nD) : W5 m ρ c (Proc.devRef .tc main_v22) = W2 m ρ c (Proc.devRef .tc main_v22) :=
  (keepH2 (W4 m ρ c) main_v22 (by decide)).trans (v22_W4 m ρ c)
theorem v22_W6 (c : Dev nD) : W6 m ρ c (Proc.devRef .tc main_v22) = W2 m ρ c (Proc.devRef .tc main_v22) :=
  (keepR2 m ρ c main_v22 (by decide)).trans (v22_W5 m ρ c)
theorem v45_W5 (c : Dev nD) : W5 m ρ c (Proc.devRef .tc main_v45) = W4 m ρ c (Proc.devRef .tc main_v45) :=
  keepH2 (W4 m ρ c) main_v45 (by decide)
theorem v45_W6 (c : Dev nD) : W6 m ρ c (Proc.devRef .tc main_v45) = W4 m ρ c (Proc.devRef .tc main_v45) :=
  (keepR2 m ρ c main_v45 (by decide)).trans (v45_W5 m ρ c)
theorem v45_W7 (c : Dev nD) : W7 m ρ c (Proc.devRef .tc main_v45) = W4 m ρ c (Proc.devRef .tc main_v45) :=
  (keepH3 (W6 m ρ c) main_v45 (by decide)).trans (v45_W6 m ρ c)
theorem v68_W7 (c : Dev nD) : W7 m ρ c (Proc.devRef .tc main_v68) = W6 m ρ c (Proc.devRef .tc main_v68) :=
  keepH3 (W6 m ρ c) main_v68 (by decide)
theorem v68_W8 (c : Dev nD) : W8 m ρ c (Proc.devRef .tc main_v68) = W6 m ρ c (Proc.devRef .tc main_v68) :=
  (keepR3 m ρ c main_v68 (by decide)).trans (v68_W7 m ρ c)

end Cert.KernelIdeal.Trace

end
-- ==== Proof.Conv0.lean ====
/-
  Tiled kernel 0 of the idealized program: one convolution layer over 50000 nodes, 10 blocks of 5000 rows.

  At a grid point t the tile reads rows 5000·t … 5000·t + 4999 of the neighbour sums, of the reciprocal column and of
  the nodes' own features, and the whole of the two weight matrices and of the bias row; it writes rows
  5000·t … 5000·t + 4999 of the result.  Entry (p, q) of what it writes is the layer's entry (5000·t + p, q) of the
  whole arrays, because an entry of the layer reads one row of the row operands.  The 10 blocks tile the result
  array (row r is in block r / 5000), so after the kernel the result array is the layer of the whole arrays.
-/
import proofs.«166278_j11192684773891_2_alg».proof.Proof.Gen.KernelIdeal.Frame
import proofs.«166278_j11192684773891_2_alg».proof.Proof.LibMeanConv

set_option maxRecDepth 16384

noncomputable section

namespace Cert.KernelIdeal.Conv0

open Cert.KernelIdeal Cert.KernelIdeal.Gen Cert.MeanConv Cert.RectLayers Cert.DenseLayer
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The tile's arithmetic at an entry: the sum scaled by the reciprocal column against the left weights, the own
    features against the right weights, the bias row, the rectifier. -/
theorem tile_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k0_pay1 (F := Ideal) x0 x1 x2 x3 x4 x5 (ix2 p q)
      = conv (A := 5000) (K := 128) (B := 128) rect x0 x1 x2 x3 x4 x5 (ix2 p q) := by
  unfold k0_pay1
  simp only [shapeCast_self]
  show max ((matmul _ _ _ _ _ (ix2 p q) + matmul _ _ _ _ _ (ix2 p q)) + broadcastTo _ _ _ (ix2 p q))
      (Ideal.ofBits .f32 0x00000000#32) = _
  rw [tile_product_apply dot_S5000x128_S128x128_S5000x128_1_0_0_1_n_n rfl rfl rfl rfl rfl rfl rfl rfl none _ _ p q,
    tile_product_apply dot_S5000x128_S128x128_S5000x128_1_0_0_1_n_n rfl rfl rfl rfl rfl rfl rfl rfl none _ _ p q,
    broadcastTo_1b_ab_apply, conv_ix2]
  have e : ∀ k : Fin 128, (broadcastTo S5000x128 x1 broadcasts_S5000x1_S5000x128 (ix2 p k) : EReal)
      = x1 (ix2 p (0 : Fin 1)) := fun k => Cert.Column.across_apply x1 _ p k
  show max (((∑ k : Fin 128, (x0 (ix2 p k) * broadcastTo S5000x128 x1 broadcasts_S5000x1_S5000x128 (ix2 p k)) * x3 (ix2 k q))
      + ∑ k : Fin 128, x2 (ix2 p k) * x4 (ix2 k q)) + x5 (ix2 (0 : Fin 1) q)) (Ideal.ofBits .f32 0x00000000#32) = _
  simp only [e]
  rfl

/-- The printed index maps, decided over the grid: the row operands and the result move with the grid point, the
    weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := by
  have h : t.val < cfg0.N := t.isLt
  have e : cfg0.N = 10 := N_0
  omega

variable (V : (c : Dev nD) → (b : Ref sig .tc) → Buf (Elt Ideal) ((c : Thread nD τ).loc b))

/-- Block t of the neighbour sums holds rows 5000·t … of the array. -/
theorem rows_s (c : Dev nD) (t : Fin cfg0.N) (p : Fin 5000) (k : Fin 128) (h : t.val * 5000 + p.val < 50000) :
    iblk0 V c 0 t (ix2 p k) = (V c main_v11 : S50000x128.Idx → Ideal .f32) (ix2 ⟨t.val * 5000 + p.val, h⟩ k) := by
  obtain ⟨e0, e1, -⟩ := idx_facts t
  show (V c main_v11 : S50000x128.Idx → Ideal .f32) (((cfg0.win 0).blk t).view.emb (ix2 p k)) = _
  refine congrArg (V c main_v11 : S50000x128.Idx → Ideal .f32) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block t of the reciprocal column holds rows 5000·t … of the column. -/
theorem rows_r (c : Dev nD) (t : Fin cfg0.N) (p : Fin 5000) (u : Fin 1) (h : t.val * 5000 + p.val < 50000) :
    iblk0 V c 1 t (ix2 p u) = (V c main_v20 : S50000x1.Idx → Ideal .f32) (ix2 ⟨t.val * 5000 + p.val, h⟩ (0 : Fin 1)) := by
  obtain ⟨-, -, e0, e1, -⟩ := idx_facts t
  show (V c main_v20 : S50000x1.Idx → Ideal .f32) (((cfg0.win 1).blk t).view.emb (ix2 p u)) = _
  refine congrArg (V c main_v20 : S50000x1.Idx → Ideal .f32) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * u.val = 0; omega

/-- Block t of the nodes' own features holds rows 5000·t … of the array. -/
theorem rows_h (c : Dev nD) (t : Fin cfg0.N) (p : Fin 5000) (k : Fin 128) (h : t.val * 5000 + p.val < 50000) :
    iblk0 V c 2 t (ix2 p k) = (V c main_arg1 : S50000x128.Idx → Ideal .f32) (ix2 ⟨t.val * 5000 + p.val, h⟩ k) := by
  obtain ⟨-, -, -, -, e0, e1, -⟩ := idx_facts t
  show (V c main_arg1 : S50000x128.Idx → Ideal .f32) (((cfg0.win 2).blk t).view.emb (ix2 p k)) = _
  refine congrArg (V c main_arg1 : S50000x128.Idx → Ideal .f32) (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

/-- The left weights' one block is the whole matrix. -/
theorem whole_wl (c : Dev nD) (t : Fin cfg0.N) (k : Fin 128) (q : Fin 128) :
    iblk0 V c 3 t (ix2 k q) = (V c main_arg2 : S128x128.Idx → Ideal .f32) (ix2 k q) := by
  obtain ⟨-, -, -, -, -, -, e0, e1, -⟩ := idx_facts t
  show (V c main_arg2 : S128x128.Idx → Ideal .f32) (((cfg0.win 3).blk t).view.emb (ix2 k q)) = _
  refine congrArg (V c main_arg2 : S128x128.Idx → Ideal .f32) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The right weights' one block is the whole matrix. -/
theorem whole_wr (c : Dev nD) (t : Fin cfg0.N) (k : Fin 128) (q : Fin 128) :
    iblk0 V c 4 t (ix2 k q) = (V c main_arg3 : S128x128.Idx → Ideal .f32) (ix2 k q) := by
  obtain ⟨-, -, -, -, -, -, -, -, e0, e1, -⟩ := idx_facts t
  show (V c main_arg3 : S128x128.Idx → Ideal .f32) (((cfg0.win 4).blk t).view.emb (ix2 k q)) = _
  refine congrArg (V c main_arg3 : S128x128.Idx → Ideal .f32) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The bias row's one block is the whole row. -/
theorem whole_b (c : Dev nD) (t : Fin cfg0.N) (u : Fin 1) (q : Fin 128) :
    iblk0 V c 5 t (ix2 u q) = (V c main_v21 : S1x128.Idx → Ideal .f32) (ix2 (0 : Fin 1) q) := by
  obtain ⟨-, -, -, -, -, -, -, -, -, -, e0, e1, -⟩ := idx_facts t
  show (V c main_v21 : S1x128.Idx → Ideal .f32) (((cfg0.win 5).blk t).view.emb (ix2 u q)) = _
  refine congrArg (V c main_v21 : S1x128.Idx → Ideal .f32) (funext fun a => Fin.ext ?_)
  match a with
  | ⟨0, _⟩ => show win0_5.index t (0 : Fin 2) * 1 + 1 * u.val = 0; omega
  | ⟨1, _⟩ => show win0_5.index t (1 : Fin 2) * 128 + 1 * q.val = q.val; omega

/-- Entry (p, q) of the result's block t sits at row 5000·t + p of the result array. -/
theorem out_at (t : Fin cfg0.N) (p : Fin 5000) (q : Fin 128) (h : t.val * 5000 + p.val < 50000) :
    ((cfg0.win 6).blk t).view.emb (ix2 p q) = (ix2 ⟨t.val * 5000 + p.val, h⟩ q : S50000x128.Idx) := by
  obtain ⟨-, -, -, -, -, -, -, -, -, -, -, -, e0, e1⟩ := idx_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-- The layer of the arrays as the kernel finds them. -/
abbrev layer (c : Dev nD) : S50000x128.Idx → Ideal .f32 :=
  conv (A := 50000) (K := 128) (B := 128) rect (V c main_v11) (V c main_v20) (V c main_arg1) (V c main_arg2) (V c main_arg3) (V c main_v21)

/-- What grid point t writes back is block t of the layer of the whole arrays. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := t_lt t
  have hp : t.val * 5000 + p.val < 50000 := by have := p.isLt; omega
  show k0_pay1 (iblk0 V c 0 t) (iblk0 V c 1 t) (iblk0 V c 2 t) (iblk0 V c 3 t) (iblk0 V c 4 t) (iblk0 V c 5 t) (ix2 p q)
      = layer V c (((cfg0.win 6).blk t).view.emb (ix2 p q))
  rw [out_at t p q hp]
  refine (tile_apply _ _ _ _ _ _ p q).trans ?_
  unfold layer
  rw [conv_ix2, conv_ix2]
  simp only [rows_s V c t p _ hp, rows_r V c t p _ hp, rows_h V c t p _ hp, whole_wl V c t, whole_wr V c t, whole_b V c t]

/-- An index of the result array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- After the kernel the result array is the layer of the whole arrays. -/
theorem final (c : Dev nD) : (dat0 V c).arrAt 6 cfg0.N = layer V c :=
  (dat0 V c).arrAt_eq_of_cover 6 (layer V c) (fun t _ => flushed_eq V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, by rw [show cfg0.N = 10 from N_0]; omega⟩, rfl⟩
    obtain ⟨-, -, -, -, -, -, -, -, -, -, -, -, e0, e1⟩ := idx_facts t
    refine ⟨t, flush0_6 t, ?_⟩
    rw [mem_blk]
    intro a
    match a with
    | ⟨0, _⟩ => show win0_6.index t (0 : Fin 2) * 5000 ≤ (i 0).val ∧ (i 0).val < win0_6.index t (0 : Fin 2) * 5000 + 5000; omega
    | ⟨1, _⟩ => show win0_6.index t (1 : Fin 2) * 128 ≤ (i 1).val ∧ (i 1).val < win0_6.index t (1 : Fin 2) * 128 + 128; omega

end Cert.KernelIdeal.Conv0

end
-- ==== Proof.Conv1.lean ====
/-
  Tiled kernel 1 of the idealized program: one convolution layer over 100000 nodes, 20 blocks of 5000 rows.

  At a grid point t the tile reads rows 5000·t … 5000·t + 4999 of the neighbour sums, of the reciprocal column and of
  the nodes' own features, and the whole of the two weight matrices and of the bias row; it writes rows
  5000·t … 5000·t + 4999 of the result.  Entry (p, q) of what it writes is the layer's entry (5000·t + p, q) of the
  whole arrays, because an entry of the layer reads one row of the row operands.  The 20 blocks tile the result
  array (row r is in block r / 5000), so after the kernel the result array is the layer of the whole arrays.
-/
import proofs.«166278_j11192684773891_2_alg».proof.Proof.Gen.KernelIdeal.Frame
import proofs.«166278_j11192684773891_2_alg».proof.Proof.LibMeanConv

set_option maxRecDepth 16384

noncomputable section

namespace Cert.KernelIdeal.Conv1

open Cert.KernelIdeal Cert.KernelIdeal.Gen Cert.MeanConv Cert.RectLayers Cert.DenseLayer
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The tile's arithmetic at an entry: the sum scaled by the reciprocal column against the left weights, the own
    features against the right weights, the bias row, the rectifier. -/
theorem tile_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k1_pay1 (F := Ideal) x0 x1 x2 x3 x4 x5 (ix2 p q)
      = conv (A := 5000) (K := 128) (B := 128) rect x0 x1 x2 x3 x4 x5 (ix2 p q) := by
  unfold k1_pay1
  simp only [shapeCast_self]
  show max ((matmul _ _ _ _ _ (ix2 p q) + matmul _ _ _ _ _ (ix2 p q)) + broadcastTo _ _ _ (ix2 p q))
      (Ideal.ofBits .f32 0x00000000#32) = _
  rw [tile_product_apply dot_S5000x128_S128x128_S5000x128_1_0_0_1_n_n rfl rfl rfl rfl rfl rfl rfl rfl none _ _ p q,
    tile_product_apply dot_S5000x128_S128x128_S5000x128_1_0_0_1_n_n rfl rfl rfl rfl rfl rfl rfl rfl none _ _ p q,
    broadcastTo_1b_ab_apply, conv_ix2]
  have e : ∀ k : Fin 128, (broadcastTo S5000x128 x1 broadcasts_S5000x1_S5000x128 (ix2 p k) : EReal)
      = x1 (ix2 p (0 : Fin 1)) := fun k => Cert.Column.across_apply x1 _ p k
  show max (((∑ k : Fin 128, (x0 (ix2 p k) * broadcastTo S5000x128 x1 broadcasts_S5000x1_S5000x128 (ix2 p k)) * x3 (ix2 k q))
      + ∑ k : Fin 128, x2 (ix2 p k) * x4 (ix2 k q)) + x5 (ix2 (0 : Fin 1) q)) (Ideal.ofBits .f32 0x00000000#32) = _
  simp only [e]
  rfl

/-- The printed index maps, decided over the grid: the row operands and the result move with the grid point, the
    weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 20 := by
  have h : t.val < cfg1.N := t.isLt
  have e : cfg1.N = 20 := N_1
  omega

variable (V : (c : Dev nD) → (b : Ref sig .tc) → Buf (Elt Ideal) ((c : Thread nD τ).loc b))

/-- Block t of the neighbour sums holds rows 5000·t … of the array. -/
theorem rows_s (c : Dev nD) (t : Fin cfg1.N) (p : Fin 5000) (k : Fin 128) (h : t.val * 5000 + p.val < 100000) :
    iblk1 V c 0 t (ix2 p k) = (V c main_v34 : S100000x128.Idx → Ideal .f32) (ix2 ⟨t.val * 5000 + p.val, h⟩ k) := by
  obtain ⟨e0, e1, -⟩ := idx_facts t
  show (V c main_v34 : S100000x128.Idx → Ideal .f32) (((cfg1.win 0).blk t).view.emb (ix2 p k)) = _
  refine congrArg (V c main_v34 : S100000x128.Idx → Ideal .f32) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block t of the reciprocal column holds rows 5000·t … of the column. -/
theorem rows_r (c : Dev nD) (t : Fin cfg1.N) (p : Fin 5000) (u : Fin 1) (h : t.val * 5000 + p.val < 100000) :
    iblk1 V c 1 t (ix2 p u) = (V c main_v43 : S100000x1.Idx → Ideal .f32) (ix2 ⟨t.val * 5000 + p.val, h⟩ (0 : Fin 1)) := by
  obtain ⟨-, -, e0, e1, -⟩ := idx_facts t
  show (V c main_v43 : S100000x1.Idx → Ideal .f32) (((cfg1.win 1).blk t).view.emb (ix2 p u)) = _
  refine congrArg (V c main_v43 : S100000x1.Idx → Ideal .f32) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * u.val = 0; omega

/-- Block t of the nodes' own features holds rows 5000·t … of the array. -/
theorem rows_h (c : Dev nD) (t : Fin cfg1.N) (p : Fin 5000) (k : Fin 128) (h : t.val * 5000 + p.val < 100000) :
    iblk1 V c 2 t (ix2 p k) = (V c main_arg0 : S100000x128.Idx → Ideal .f32) (ix2 ⟨t.val * 5000 + p.val, h⟩ k) := by
  obtain ⟨-, -, -, -, e0, e1, -⟩ := idx_facts t
  show (V c main_arg0 : S100000x128.Idx → Ideal .f32) (((cfg1.win 2).blk t).view.emb (ix2 p k)) = _
  refine congrArg (V c main_arg0 : S100000x128.Idx → Ideal .f32) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

/-- The left weights' one block is the whole matrix. -/
theorem whole_wl (c : Dev nD) (t : Fin cfg1.N) (k : Fin 128) (q : Fin 128) :
    iblk1 V c 3 t (ix2 k q) = (V c main_arg5 : S128x128.Idx → Ideal .f32) (ix2 k q) := by
  obtain ⟨-, -, -, -, -, -, e0, e1, -⟩ := idx_facts t
  show (V c main_arg5 : S128x128.Idx → Ideal .f32) (((cfg1.win 3).blk t).view.emb (ix2 k q)) = _
  refine congrArg (V c main_arg5 : S128x128.Idx → Ideal .f32) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The right weights' one block is the whole matrix. -/
theorem whole_wr (c : Dev nD) (t : Fin cfg1.N) (k : Fin 128) (q : Fin 128) :
    iblk1 V c 4 t (ix2 k q) = (V c main_arg6 : S128x128.Idx → Ideal .f32) (ix2 k q) := by
  obtain ⟨-, -, -, -, -, -, -, -, e0, e1, -⟩ := idx_facts t
  show (V c main_arg6 : S128x128.Idx → Ideal .f32) (((cfg1.win 4).blk t).view.emb (ix2 k q)) = _
  refine congrArg (V c main_arg6 : S128x128.Idx → Ideal .f32) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias row's one block is the whole row. -/
theorem whole_b (c : Dev nD) (t : Fin cfg1.N) (u : Fin 1) (q : Fin 128) :
    iblk1 V c 5 t (ix2 u q) = (V c main_v44 : S1x128.Idx → Ideal .f32) (ix2 (0 : Fin 1) q) := by
  obtain ⟨-, -, -, -, -, -, -, -, -, -, e0, e1, -⟩ := idx_facts t
  show (V c main_v44 : S1x128.Idx → Ideal .f32) (((cfg1.win 5).blk t).view.emb (ix2 u q)) = _
  refine congrArg (V c main_v44 : S1x128.Idx → Ideal .f32) (funext fun a => Fin.ext ?_)
  match a with
  | ⟨0, _⟩ => show win1_5.index t (0 : Fin 2) * 1 + 1 * u.val = 0; omega
  | ⟨1, _⟩ => show win1_5.index t (1 : Fin 2) * 128 + 1 * q.val = q.val; omega

/-- Entry (p, q) of the result's block t sits at row 5000·t + p of the result array. -/
theorem out_at (t : Fin cfg1.N) (p : Fin 5000) (q : Fin 128) (h : t.val * 5000 + p.val < 100000) :
    ((cfg1.win 6).blk t).view.emb (ix2 p q) = (ix2 ⟨t.val * 5000 + p.val, h⟩ q : S100000x128.Idx) := by
  obtain ⟨-, -, -, -, -, -, -, -, -, -, -, -, e0, e1⟩ := idx_facts t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- The layer of the arrays as the kernel finds them. -/
abbrev layer (c : Dev nD) : S100000x128.Idx → Ideal .f32 :=
  conv (A := 100000) (K := 128) (B := 128) rect (V c main_v34) (V c main_v43) (V c main_arg0) (V c main_arg5) (V c main_arg6) (V c main_v44)

/-- What grid point t writes back is block t of the layer of the whole arrays. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := t_lt t
  have hp : t.val * 5000 + p.val < 100000 := by have := p.isLt; omega
  show k1_pay1 (iblk1 V c 0 t) (iblk1 V c 1 t) (iblk1 V c 2 t) (iblk1 V c 3 t) (iblk1 V c 4 t) (iblk1 V c 5 t) (ix2 p q)
      = layer V c (((cfg1.win 6).blk t).view.emb (ix2 p q))
  rw [out_at t p q hp]
  refine (tile_apply _ _ _ _ _ _ p q).trans ?_
  unfold layer
  rw [conv_ix2, conv_ix2]
  simp only [rows_s V c t p _ hp, rows_r V c t p _ hp, rows_h V c t p _ hp, whole_wl V c t, whole_wr V c t, whole_b V c t]

/-- An index of the result array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45).slice (win1_6.rect t)).set ↔ _
  rw [View.set_slice_whole, Rect.mem_set_unit]
  exact Iff.rfl

/-- After the kernel the result array is the layer of the whole arrays. -/
theorem final (c : Dev nD) : (dat1 V c).arrAt 6 cfg1.N = layer V c :=
  (dat1 V c).arrAt_eq_of_cover 6 (layer V c) (fun t _ => flushed_eq V c t) fun i => by
    have hi0 : (i 0).val < 100000 := (i 0).isLt
    have hi1 : (i 1).val < 128 := (i 1).isLt
    obtain ⟨t, ht⟩ : ∃ t : Fin cfg1.N, t.val = (i 0).val / 5000 :=
      ⟨⟨(i 0).val / 5000, by rw [show cfg1.N = 20 from N_1]; omega⟩, rfl⟩
    obtain ⟨-, -, -, -, -, -, -, -, -, -, -, -, e0, e1⟩ := idx_facts t
    refine ⟨t, flush1_6 t, ?_⟩
    rw [mem_blk]
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 128 ≤ (i 1).val ∧ (i 1).val < win1_6.index t (1 : Fin 2) * 128 + 128; omega

end Cert.KernelIdeal.Conv1

end
-- ==== Proof.Conv2.lean ====
/-
  Tiled kernel 2 of the idealized program: one convolution layer over 50000 nodes, 10 blocks of 5000 rows.

  At a grid point t the tile reads rows 5000·t … 5000·t + 4999 of the neighbour sums, of the reciprocal column and of
  the nodes' own features, and the whole of the two weight matrices and of the bias row; it writes rows
  5000·t … 5000·t + 4999 of the result.  Entry (p, q) of what it writes is the layer's entry (5000·t + p, q) of the
  whole arrays, because an entry of the layer reads one row of the row operands.  The 10 blocks tile the result
  array (row r is in block r / 5000), so after the kernel the result array is the layer of the whole arrays.
-/
import proofs.«166278_j11192684773891_2_alg».proof.Proof.Gen.KernelIdeal.Frame
import proofs.«166278_j11192684773891_2_alg».proof.Proof.LibMeanConv

set_option maxRecDepth 16384

noncomputable section

namespace Cert.KernelIdeal.Conv2

open Cert.KernelIdeal Cert.KernelIdeal.Gen Cert.MeanConv Cert.RectLayers Cert.DenseLayer
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The tile's arithmetic at an entry: the sum scaled by the reciprocal column against the left weights, the own
    features against the right weights, the bias row. -/
theorem tile_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k2_pay1 (F := Ideal) x0 x1 x2 x3 x4 x5 (ix2 p q)
      = conv (A := 5000) (K := 128) (B := 128) id x0 x1 x2 x3 x4 x5 (ix2 p q) := by
  unfold k2_pay1
  simp only [shapeCast_self]
  show (matmul _ _ _ _ _ (ix2 p q) + matmul _ _ _ _ _ (ix2 p q)) + broadcastTo _ _ _ (ix2 p q) = _
  rw [tile_product_apply dot_S5000x128_S128x128_S5000x128_1_0_0_1_n_n rfl rfl rfl rfl rfl rfl rfl rfl none _ _ p q,
    tile_product_apply dot_S5000x128_S128x128_S5000x128_1_0_0_1_n_n rfl rfl rfl rfl rfl rfl rfl rfl none _ _ p q,
    broadcastTo_1b_ab_apply, conv_ix2]
  have e : ∀ k : Fin 128, (broadcastTo S5000x128 x1 broadcasts_S5000x1_S5000x128 (ix2 p k) : EReal)
      = x1 (ix2 p (0 : Fin 1)) := fun k => Cert.Column.across_apply x1 _ p k
  show (((∑ k : Fin 128, (x0 (ix2 p k) * broadcastTo S5000x128 x1 broadcasts_S5000x1_S5000x128 (ix2 p k)) * x3 (ix2 k q))
      + ∑ k : Fin 128, x2 (ix2 p k) * x4 (ix2 k q)) + x5 (ix2 (0 : Fin 1) q)) = _
  simp only [e]
  rfl

/-- The printed index maps, decided over the grid: the row operands and the result move with the grid point, the
    weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 10 := by
  have h : t.val < cfg2.N := t.isLt
  have e : cfg2.N = 10 := N_2
  omega

variable (V : (c : Dev nD) → (b : Ref sig .tc) → Buf (Elt Ideal) ((c : Thread nD τ).loc b))

/-- Block t of the neighbour sums holds rows 5000·t … of the array. -/
theorem rows_s (c : Dev nD) (t : Fin cfg2.N) (p : Fin 5000) (k : Fin 128) (h : t.val * 5000 + p.val < 50000) :
    iblk2 V c 0 t (ix2 p k) = (V c main_v57 : S50000x128.Idx → Ideal .f32) (ix2 ⟨t.val * 5000 + p.val, h⟩ k) := by
  obtain ⟨e0, e1, -⟩ := idx_facts t
  show (V c main_v57 : S50000x128.Idx → Ideal .f32) (((cfg2.win 0).blk t).view.emb (ix2 p k)) = _
  refine congrArg (V c main_v57 : S50000x128.Idx → Ideal .f32) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Block t of the reciprocal column holds rows 5000·t … of the column. -/
theorem rows_r (c : Dev nD) (t : Fin cfg2.N) (p : Fin 5000) (u : Fin 1) (h : t.val * 5000 + p.val < 50000) :
    iblk2 V c 1 t (ix2 p u) = (V c main_v66 : S50000x1.Idx → Ideal .f32) (ix2 ⟨t.val * 5000 + p.val, h⟩ (0 : Fin 1)) := by
  obtain ⟨-, -, e0, e1, -⟩ := idx_facts t
  show (V c main_v66 : S50000x1.Idx → Ideal .f32) (((cfg2.win 1).blk t).view.emb (ix2 p u)) = _
  refine congrArg (V c main_v66 : S50000x1.Idx → Ideal .f32) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * u.val = 0; omega

/-- Block t of the nodes' own features holds rows 5000·t … of the array. -/
theorem rows_h (c : Dev nD) (t : Fin cfg2.N) (p : Fin 5000) (k : Fin 128) (h : t.val * 5000 + p.val < 50000) :
    iblk2 V c 2 t (ix2 p k) = (V c main_v22 : S50000x128.Idx → Ideal .f32) (ix2 ⟨t.val * 5000 + p.val, h⟩ k) := by
  obtain ⟨-, -, -, -, e0, e1, -⟩ := idx_facts t
  show (V c main_v22 : S50000x128.Idx → Ideal .f32) (((cfg2.win 2).blk t).view.emb (ix2 p k)) = _
  refine congrArg (V c main_v22 : S50000x128.Idx → Ideal .f32) (funext fun a => Fin.ext ?_)
  match a with
  | ⟨0, _⟩ => show win2_2.index t (0 : Fin 2) * 5000 + 1 * p.val = t.val * 5000 + p.val; omega
  | ⟨1, _⟩ => show win2_2.index t (1 : Fin 2) * 128 + 1 * k.val = k.val; omega

/-- The left weights' one block is the whole matrix. -/
theorem whole_wl (c : Dev nD) (t : Fin cfg2.N) (k : Fin 128) (q : Fin 128) :
    iblk2 V c 3 t (ix2 k q) = (V c main_arg8 : S128x128.Idx → Ideal .f32) (ix2 k q) := by
  obtain ⟨-, -, -, -, -, -, e0, e1, -⟩ := idx_facts t
  show (V c main_arg8 : S128x128.Idx → Ideal .f32) (((cfg2.win 3).blk t).view.emb (ix2 k q)) = _
  refine congrArg (V c main_arg8 : S128x128.Idx → Ideal .f32) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The right weights' one block is the whole matrix. -/
theorem whole_wr (c : Dev nD) (t : Fin cfg2.N) (k : Fin 128) (q : Fin 128) :
    iblk2 V c 4 t (ix2 k q) = (V c main_arg9 : S128x128.Idx → Ideal .f32) (ix2 k q) := by
  obtain ⟨-, -, -, -, -, -, -, -, e0, e1, -⟩ := idx_facts t
  show (V c main_arg9 : S128x128.Idx → Ideal .f32) (((cfg2.win 4).blk t).view.emb (ix2 k q)) = _
  refine congrArg (V c main_arg9 : S128x128.Idx → Ideal .f32) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The bias row's one block is the whole row. -/
theorem whole_b (c : Dev nD) (t : Fin cfg2.N) (u : Fin 1) (q : Fin 128) :
    iblk2 V c 5 t (ix2 u q) = (V c main_v67 : S1x128.Idx → Ideal .f32) (ix2 (0 : Fin 1) q) := by
  obtain ⟨-, -, -, -, -, -, -, -, -, -, e0, e1, -⟩ := idx_facts t
  show (V c main_v67 : S1x128.Idx → Ideal .f32) (((cfg2.win 5).blk t).view.emb (ix2 u q)) = _
  refine congrArg (V c main_v67 : S1x128.Idx → Ideal .f32) (funext fun a => Fin.ext ?_)
  match a with
  | ⟨0, _⟩ => show win2_5.index t (0 : Fin 2) * 1 + 1 * u.val = 0; omega
  | ⟨1, _⟩ => show win2_5.index t (1 : Fin 2) * 128 + 1 * q.val = q.val; omega

/-- Entry (p, q) of the result's block t sits at row 5000·t + p of the result array. -/
theorem out_at (t : Fin cfg2.N) (p : Fin 5000) (q : Fin 128) (h : t.val * 5000 + p.val < 50000) :
    ((cfg2.win 6).blk t).view.emb (ix2 p q) = (ix2 ⟨t.val * 5000 + p.val, h⟩ q : S50000x128.Idx) := by
  obtain ⟨-, -, -, -, -, -, -, -, -, -, -, -, e0, e1⟩ := idx_facts t
  refine funext fun a => Fin.ext ?_
  match a with
  | ⟨0, _⟩ => show win2_6.index t (0 : Fin 2) * 5000 + 1 * p.val = t.val * 5000 + p.val; omega
  | ⟨1, _⟩ => show win2_6.index t (1 : Fin 2) * 128 + 1 * q.val = q.val; omega

/-- The layer of the arrays as the kernel finds them. -/
abbrev layer (c : Dev nD) : S50000x128.Idx → Ideal .f32 :=
  conv (A := 50000) (K := 128) (B := 128) id (V c main_v57) (V c main_v66) (V c main_v22) (V c main_arg8) (V c main_arg9) (V c main_v67)

/-- What grid point t writes back is block t of the layer of the whole arrays. -/
theorem flushed_eq (c : Dev nD) (t : Fin cfg2.N) :
    (dat2 V c).flushed 6 t = ((cfg2.win 6).blk t).view.read (Elt Ideal) (layer V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := t_lt t
  have hp : t.val * 5000 + p.val < 50000 := by have := p.isLt; omega
  show k2_pay1 (iblk2 V c 0 t) (iblk2 V c 1 t) (iblk2 V c 2 t) (iblk2 V c 3 t) (iblk2 V c 4 t) (iblk2 V c 5 t) (ix2 p q)
      = layer V c (((cfg2.win 6).blk t).view.emb (ix2 p q))
  rw [out_at t p q hp]
  refine (tile_apply _ _ _ _ _ _ p q).trans ?_
  unfold layer
  rw [conv_ix2, conv_ix2]
  simp only [rows_s V c t p _ hp, rows_r V c t p _ hp, rows_h V c t p _ hp, whole_wl V c t, whole_wr V c t, whole_b V c t]

/-- An index of the result array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v68).slice (win2_6.rect t)).set ↔ _
  rw [View.set_slice_whole, Rect.mem_set_unit]
  exact Iff.rfl

/-- After the kernel the result array is the layer of the whole arrays. -/
theorem final (c : Dev nD) : (dat2 V c).arrAt 6 cfg2.N = layer V c :=
  (dat2 V c).arrAt_eq_of_cover 6 (layer V c) (fun t _ => flushed_eq V c t) fun i => by
    have hi0 : (i 0).val < 50000 := (i 0).isLt
    have hi1 : (i 1).val < 128 := (i 1).isLt
    obtain ⟨t, ht⟩ : ∃ t : Fin cfg2.N, t.val = (i 0).val / 5000 :=
      ⟨⟨(i 0).val / 5000, by rw [show cfg2.N = 10 from N_2]; omega⟩, rfl⟩
    obtain ⟨-, -, -, -, -, -, -, -, -, -, -, -, e0, e1⟩ := idx_facts t
    refine ⟨t, flush2_6 t, ?_⟩
    rw [mem_blk]
    intro a
    match a with
    | ⟨0, _⟩ => show win2_6.index t (0 : Fin 2) * 5000 ≤ (i 0).val ∧ (i 0).val < win2_6.index t (0 : Fin 2) * 5000 + 5000; omega
    | ⟨1, _⟩ => show win2_6.index t (1 : Fin 2) * 128 ≤ (i 1).val ∧ (i 1).val < win2_6.index t (1 : Fin 2) * 128 + 128; omega

end Cert.KernelIdeal.Conv2

end
-- ==== Proof.Conv3.lean ====
/-
  Tiled kernel 3 of the idealized program: one convolution layer over 100000 nodes, 20 blocks of 5000 rows.

  At a grid point t the tile reads rows 5000·t … 5000·t + 4999 of the neighbour sums, of the reciprocal column and of
  the nodes' own features, and the whole of the two weight matrices and of the bias row; it writes rows
  5000·t … 5000·t + 4999 of the result.  Entry (p, q) of what it writes is the layer's entry (5000·t + p, q) of the
  whole arrays, because an entry of the layer reads one row of the row operands.  The 20 blocks tile the result
  array (row r is in block r / 5000), so after the kernel the result array is the layer of the whole arrays.
-/
import proofs.«166278_j11192684773891_2_alg».proof.Proof.Gen.KernelIdeal.Frame
import proofs.«166278_j11192684773891_2_alg».proof.Proof.LibMeanConv

set_option maxRecDepth 16384

noncomputable section

namespace Cert.KernelIdeal.Conv3

open Cert.KernelIdeal Cert.KernelIdeal.Gen Cert.MeanConv Cert.RectLayers Cert.DenseLayer
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The tile's arithmetic at an entry: the sum scaled by the reciprocal column against the left weights, the own
    features against the right weights, the bias row. -/
theorem tile_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k3_pay1 (F := Ideal) x0 x1 x2 x3 x4 x5 (ix2 p q)
      = conv (A := 5000) (K := 128) (B := 128) id x0 x1 x2 x3 x4 x5 (ix2 p q) := by
  unfold k3_pay1
  simp only [shapeCast_self]
  show (matmul _ _ _ _ _ (ix2 p q) + matmul _ _ _ _ _ (ix2 p q)) + broadcastTo _ _ _ (ix2 p q) = _
  rw [tile_product_apply dot_S5000x128_S128x128_S5000x128_1_0_0_1_n_n rfl rfl rfl rfl rfl rfl rfl rfl none _ _ p q,
    tile_product_apply dot_S5000x128_S128x128_S5000x128_1_0_0_1_n_n rfl rfl rfl rfl rfl rfl rfl rfl none _ _ p q,
    broadcastTo_1b_ab_apply, conv_ix2]
  have e : ∀ k : Fin 128, (broadcastTo S5000x128 x1 broadcasts_S5000x1_S5000x128 (ix2 p k) : EReal)
      = x1 (ix2 p (0 : Fin 1)) := fun k => Cert.Column.across_apply x1 _ p k
  show (((∑ k : Fin 128, (x0 (ix2 p k) * broadcastTo S5000x128 x1 broadcasts_S5000x1_S5000x128 (ix2 p k)) * x3 (ix2 k q))
      + ∑ k : Fin 128, x2 (ix2 p k) * x4 (ix2 k q)) + x5 (ix2 (0 : Fin 1) q)) = _
  simp only [e]
  rfl

/-- The printed index maps, decided over the grid: the row operands and the result move with the grid point, the
    weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem t_lt (t : Fin cfg3.N) : t.val < 20 := by
  have h : t.val < cfg3.N := t.isLt
  have e : cfg3.N = 20 := N_3
  omega

variable (V : (c : Dev nD) → (b : Ref sig .tc) → Buf (Elt Ideal) ((c : Thread nD τ).loc b))

/-- Block t of the neighbour sums holds rows 5000·t … of the array. -/
theorem rows_s (c : Dev nD) (t : Fin cfg3.N) (p : Fin 5000) (k : Fin 128) (h : t.val * 5000 + p.val < 100000) :
    iblk3 V c 0 t (ix2 p k) = (V c main_v80 : S100000x128.Idx → Ideal .f32) (ix2 ⟨t.val * 5000 + p.val, h⟩ k) := by
  obtain ⟨e0, e1, -⟩ := idx_facts t
  show (V c main_v80 : S100000x128.Idx → Ideal .f32) (((cfg3.win 0).blk t).view.emb (ix2 p k)) = _
  refine congrArg (V c main_v80 : S100000x128.Idx → Ideal .f32) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- Block t of the reciprocal column holds rows 5000·t … of the column. -/
theorem rows_r (c : Dev nD) (t : Fin cfg3.N) (p : Fin 5000) (u : Fin 1) (h : t.val * 5000 + p.val < 100000) :
    iblk3 V c 1 t (ix2 p u) = (V c main_v89 : S100000x1.Idx → Ideal .f32) (ix2 ⟨t.val * 5000 + p.val, h⟩ (0 : Fin 1)) := by
  obtain ⟨-, -, e0, e1, -⟩ := idx_facts t
  show (V c main_v89 : S100000x1.Idx → Ideal .f32) (((cfg3.win 1).blk t).view.emb (ix2 p u)) = _
  refine congrArg (V c main_v89 : S100000x1.Idx → Ideal .f32) (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * u.val = 0; omega

/-- Block t of the nodes' own features holds rows 5000·t … of the array. -/
theorem rows_h (c : Dev nD) (t : Fin cfg3.N) (p : Fin 5000) (k : Fin 128) (h : t.val * 5000 + p.val < 100000) :
    iblk3 V c 2 t (ix2 p k) = (V c main_v45 : S100000x128.Idx → Ideal .f32) (ix2 ⟨t.val * 5000 + p.val, h⟩ k) := by
  obtain ⟨-, -, -, -, e0, e1, -⟩ := idx_facts t
  show (V c main_v45 : S100000x128.Idx → Ideal .f32) (((cfg3.win 2).blk t).view.emb (ix2 p k)) = _
  refine congrArg (V c main_v45 : S100000x128.Idx → Ideal .f32) (funext fun a => Fin.ext ?_)
  match a with
  | ⟨0, _⟩ => show win3_2.index t (0 : Fin 2) * 5000 + 1 * p.val = t.val * 5000 + p.val; omega
  | ⟨1, _⟩ => show win3_2.index t (1 : Fin 2) * 128 + 1 * k.val = k.val; omega

/-- The left weights' one block is the whole matrix. -/
theorem whole_wl (c : Dev nD) (t : Fin cfg3.N) (k : Fin 128) (q : Fin 128) :
    iblk3 V c 3 t (ix2 k q) = (V c main_arg11 : S128x128.Idx → Ideal .f32) (ix2 k q) := by
  obtain ⟨-, -, -, -, -, -, e0, e1, -⟩ := idx_facts t
  show (V c main_arg11 : S128x128.Idx → Ideal .f32) (((cfg3.win 3).blk t).view.emb (ix2 k q)) = _
  refine congrArg (V c main_arg11 : S128x128.Idx → Ideal .f32) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The right weights' one block is the whole matrix. -/
theorem whole_wr (c : Dev nD) (t : Fin cfg3.N) (k : Fin 128) (q : Fin 128) :
    iblk3 V c 4 t (ix2 k q) = (V c main_arg12 : S128x128.Idx → Ideal .f32) (ix2 k q) := by
  obtain ⟨-, -, -, -, -, -, -, -, e0, e1, -⟩ := idx_facts t
  show (V c main_arg12 : S128x128.Idx → Ideal .f32) (((cfg3.win 4).blk t).view.emb (ix2 k q)) = _
  refine congrArg (V c main_arg12 : S128x128.Idx → Ideal .f32) (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The bias row's one block is the whole row. -/
theorem whole_b (c : Dev nD) (t : Fin cfg3.N) (u : Fin 1) (q : Fin 128) :
    iblk3 V c 5 t (ix2 u q) = (V c main_v90 : S1x128.Idx → Ideal .f32) (ix2 (0 : Fin 1) q) := by
  obtain ⟨-, -, -, -, -, -, -, -, -, -, e0, e1, -⟩ := idx_facts t
  show (V c main_v90 : S1x128.Idx → Ideal .f32) (((cfg3.win 5).blk t).view.emb (ix2 u q)) = _
  refine congrArg (V c main_v90 : S1x128.Idx → Ideal .f32) (funext fun a => Fin.ext ?_)
  match a with
  | ⟨0, _⟩ => show win3_5.index t (0 : Fin 2) * 1 + 1 * u.val = 0; omega
  | ⟨1, _⟩ => show win3_5.index t (1 : Fin 2) * 128 + 1 * q.val = q.val; omega

/-- Entry (p, q) of the result's block t sits at row 5000·t + p of the result array. -/
theorem out_at (t : Fin cfg3.N) (p : Fin 5000) (q : Fin 128) (h : t.val * 5000 + p.val < 100000) :
    ((cfg3.win 6).blk t).view.emb (ix2 p q) = (ix2 ⟨t.val * 5000 + p.val, h⟩ q : S100000x128.Idx) := by
  obtain ⟨-, -, -, -, -, -, -, -, -, -, -, -, e0, e1⟩ := idx_facts t
  refine funext fun a => Fin.ext ?_
  match a with
  | ⟨0, _⟩ => show win3_6.index t (0 : Fin 2) * 5000 + 1 * p.val = t.val * 5000 + p.val; omega
  | ⟨1, _⟩ => show win3_6.index t (1 : Fin 2) * 128 + 1 * q.val = q.val; omega

/-- The layer of the arrays as the kernel finds them. -/
abbrev layer (c : Dev nD) : S100000x128.Idx → Ideal .f32 :=
  conv (A := 100000) (K := 128) (B := 128) id (V c main_v80) (V c main_v89) (V c main_v45) (V c main_arg11) (V c main_arg12) (V c main_v90)

/-- What grid point t writes back is block t of the layer of the whole arrays. -/
theorem flushed_eq (c : Dev nD) (t : Fin cfg3.N) :
    (dat3 V c).flushed 6 t = ((cfg3.win 6).blk t).view.read (Elt Ideal) (layer V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := t_lt t
  have hp : t.val * 5000 + p.val < 100000 := by have := p.isLt; omega
  show k3_pay1 (iblk3 V c 0 t) (iblk3 V c 1 t) (iblk3 V c 2 t) (iblk3 V c 3 t) (iblk3 V c 4 t) (iblk3 V c 5 t) (ix2 p q)
      = layer V c (((cfg3.win 6).blk t).view.emb (ix2 p q))
  rw [out_at t p q hp]
  refine (tile_apply _ _ _ _ _ _ p q).trans ?_
  unfold layer
  rw [conv_ix2, conv_ix2]
  simp only [rows_s V c t p _ hp, rows_r V c t p _ hp, rows_h V c t p _ hp, whole_wl V c t, whole_wr V c t, whole_b V c t]

/-- An index of the result array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v91).slice (win3_6.rect t)).set ↔ _
  rw [View.set_slice_whole, Rect.mem_set_unit]
  exact Iff.rfl

/-- After the kernel the result array is the layer of the whole arrays. -/
theorem final (c : Dev nD) : (dat3 V c).arrAt 6 cfg3.N = layer V c :=
  (dat3 V c).arrAt_eq_of_cover 6 (layer V c) (fun t _ => flushed_eq V c t) fun i => by
    have hi0 : (i 0).val < 100000 := (i 0).isLt
    have hi1 : (i 1).val < 128 := (i 1).isLt
    obtain ⟨t, ht⟩ : ∃ t : Fin cfg3.N, t.val = (i 0).val / 5000 :=
      ⟨⟨(i 0).val / 5000, by rw [show cfg3.N = 20 from N_3]; omega⟩, rfl⟩
    obtain ⟨-, -, -, -, -, -, -, -, -, -, -, -, e0, e1⟩ := idx_facts t
    refine ⟨t, flush3_6 t, ?_⟩
    rw [mem_blk]
    intro a
    match a with
    | ⟨0, _⟩ => show win3_6.index t (0 : Fin 2) * 5000 ≤ (i 0).val ∧ (i 0).val < win3_6.index t (0 : Fin 2) * 5000 + 5000; omega
    | ⟨1, _⟩ => show win3_6.index t (1 : Fin 2) * 128 ≤ (i 1).val ∧ (i 1).val < win3_6.index t (1 : Fin 2) * 128 + 128; omega

end Cert.KernelIdeal.Conv3

end
-- ==== Proof.Decode.lean ====
/-
  Tiled kernel 4 of the idealized program: the edge decoder over 200000 edges, 40 blocks of 5000 rows.

  At a grid point t the tile reads rows 5000·t … 5000·t + 4999 of the two gathered feature arrays and the whole of the
  two halves of the first weight matrix, of the first bias row, of the second weights and of the second bias; it
  writes rows 5000·t … 5000·t + 4999 of the one-column result.  Entry p of what it writes is the decoder's entry
  5000·t + p of the whole arrays, because an entry of the decoder reads one row of each feature array.  The 40 blocks
  tile the result (row r is in block r / 5000), so after the kernel the result is the decoder of the whole arrays.
-/
import proofs.«166278_j11192684773891_2_alg».proof.Proof.Gen.KernelIdeal.Frame
import proofs.«166278_j11192684773891_2_alg».proof.Proof.LibMeanConv

set_option maxRecDepth 16384

noncomputable section

namespace Cert.KernelIdeal.Decode

open Cert.KernelIdeal Cert.KernelIdeal.Gen Cert.MeanConv Cert.RectLayers Cert.DenseLayer
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The tile's arithmetic at an entry: the rectified hidden layer of the two feature rows, against the second
    weights, plus the second bias. -/
theorem tile_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (u : Fin 1) :
    k4_pay1 (F := Ideal) x0 x1 x2 x3 x4 x5 x6 (ix2 p u)
      = decode (A := 5000) (K := 128) (B := 128) x0 x1 x2 x3 x4 x5 x6 (ix2 p u) := by
  obtain rfl : u = 0 := Subsingleton.elim _ _
  unfold k4_pay1
  simp only [shapeCast_self]
  show matmul _ _ _ _ _ (ix2 p (0 : Fin 1)) + broadcastTo _ _ _ (ix2 p (0 : Fin 1)) = _
  rw [tile_product_apply dot_S5000x128_S128x1_S5000x1_1_0_0_1_n_n rfl rfl rfl rfl rfl rfl rfl rfl none _ _ p (0 : Fin 1),
    broadcastTo_1b_ab_apply, decode_ix2]
  congr 1
  refine Finset.sum_congr rfl fun k _ => ?_
  congr 1
  show max ((matmul _ _ _ _ _ (ix2 p k) + matmul _ _ _ _ _ (ix2 p k)) + broadcastTo _ _ _ (ix2 p k))
      (Ideal.ofBits .f32 0x00000000#32) = _
  rw [tile_product_apply dot_S5000x128_S128x128_S5000x128_1_0_0_1_n_n rfl rfl rfl rfl rfl rfl rfl rfl none _ _ p k,
    tile_product_apply dot_S5000x128_S128x128_S5000x128_1_0_0_1_n_n rfl rfl rfl rfl rfl rfl rfl rfl none _ _ p k,
    broadcastTo_1b_ab_apply]
  rfl

/-- The printed index maps, decided over the grid: the two feature arrays and the result move with the grid point,
    the weights and the biases stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem t_lt (t : Fin cfg4.N) : t.val < 40 := by
  have h : t.val < cfg4.N := t.isLt
  have e : cfg4.N = 40 := N_4
  omega

variable (V : (c : Dev nD) → (b : Ref sig .tc) → Buf (Elt Ideal) ((c : Thread nD τ).loc b))

/-- Block t of the first gathered feature array holds rows 5000·t … of the array. -/
theorem rows_u (c : Dev nD) (t : Fin cfg4.N) (p : Fin 5000) (k : Fin 128) (h : t.val * 5000 + p.val < 200000) :
    iblk4 V c 0 t (ix2 p k) = (V c main_v98 : S200000x128.Idx → Ideal .f32) (ix2 ⟨t.val * 5000 + p.val, h⟩ k) := by
  obtain ⟨e0, e1, -⟩ := idx_facts t
  show (V c main_v98 : S200000x128.Idx → Ideal .f32) (((cfg4.win 0).blk t).view.emb (ix2 p k)) = _
  refine congrArg (V c main_v98 : S200000x128.Idx → Ideal .f32) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- Block t of the second gathered feature array holds rows 5000·t … of the array. -/
theorem rows_i (c : Dev nD) (t : Fin cfg4.N) (p : Fin 5000) (k : Fin 128) (h : t.val * 5000 + p.val < 200000) :
    iblk4 V c 1 t (ix2 p k) = (V c main_v105 : S200000x128.Idx → Ideal .f32) (ix2 ⟨t.val * 5000 + p.val, h⟩ k) := by
  obtain ⟨-, -, e0, e1, -⟩ := idx_facts t
  show (V c main_v105 : S200000x128.Idx → Ideal .f32) (((cfg4.win 1).blk t).view.emb (ix2 p k)) = _
  refine congrArg (V c main_v105 : S200000x128.Idx → Ideal .f32) (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * k.val = k.val; omega

/-- The first half of the first weights: one block, the whole matrix. -/
theorem whole_wa (c : Dev nD) (t : Fin cfg4.N) (k : Fin 128) (q : Fin 128) :
    iblk4 V c 2 t (ix2 k q) = (V c main_v106 : S128x128.Idx → Ideal .f32) (ix2 k q) := by
  obtain ⟨-, -, -, -, e0, e1, -⟩ := idx_facts t
  show (V c main_v106 : S128x128.Idx → Ideal .f32) (((cfg4.win 2).blk t).view.emb (ix2 k q)) = _
  refine congrArg (V c main_v106 : S128x128.Idx → Ideal .f32) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- The second half of the first weights: one block, the whole matrix. -/
theorem whole_wb (c : Dev nD) (t : Fin cfg4.N) (k : Fin 128) (q : Fin 128) :
    iblk4 V c 3 t (ix2 k q) = (V c main_v107 : S128x128.Idx → Ideal .f32) (ix2 k q) := by
  obtain ⟨-, -, -, -, -, -, e0, e1, -⟩ := idx_facts t
  show (V c main_v107 : S128x128.Idx → Ideal .f32) (((cfg4.win 3).blk t).view.emb (ix2 k q)) = _
  refine congrArg (V c main_v107 : S128x128.Idx → Ideal .f32) (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- The first bias row: one block, the whole row. -/
theorem whole_b1 (c : Dev nD) (t : Fin cfg4.N) (u : Fin 1) (q : Fin 128) :
    iblk4 V c 4 t (ix2 u q) = (V c main_v108 : S1x128.Idx → Ideal .f32) (ix2 (0 : Fin 1) q) := by
  obtain ⟨-, -, -, -, -, -, -, -, e0, e1, -⟩ := idx_facts t
  show (V c main_v108 : S1x128.Idx → Ideal .f32) (((cfg4.win 4).blk t).view.emb (ix2 u q)) = _
  refine congrArg (V c main_v108 : S1x128.Idx → Ideal .f32) (funext fun a => Fin.ext ?_)
  match a with
  | ⟨0, _⟩ => show win4_4.index t (0 : Fin 2) * 1 + 1 * u.val = 0; omega
  | ⟨1, _⟩ => show win4_4.index t (1 : Fin 2) * 128 + 1 * q.val = q.val; omega

/-- The second weights: one block, the whole column. -/
theorem whole_w2 (c : Dev nD) (t : Fin cfg4.N) (k : Fin 128) (u : Fin 1) :
    iblk4 V c 5 t (ix2 k u) = (V c main_arg16 : S128x1.Idx → Ideal .f32) (ix2 k (0 : Fin 1)) := by
  obtain ⟨-, -, -, -, -, -, -, -, -, -, e0, e1, -⟩ := idx_facts t
  show (V c main_arg16 : S128x1.Idx → Ideal .f32) (((cfg4.win 5).blk t).view.emb (ix2 k u)) = _
  refine congrArg (V c main_arg16 : S128x1.Idx → Ideal .f32) (funext fun a => Fin.ext ?_)
  match a with
  | ⟨0, _⟩ => show win4_5.index t (0 : Fin 2) * 128 + 1 * k.val = k.val; omega
  | ⟨1, _⟩ => show win4_5.index t (1 : Fin 2) * 1 + 1 * u.val = 0; omega

/-- The second bias: one block, the one entry. -/
theorem whole_b2 (c : Dev nD) (t : Fin cfg4.N) (u v : Fin 1) :
    iblk4 V c 6 t (ix2 u v) = (V c main_v109 : S1x1.Idx → Ideal .f32) (ix2 (0 : Fin 1) (0 : Fin 1)) := by
  obtain ⟨-, -, -, -, -, -, -, -, -, -, -, -, e0, e1, -⟩ := idx_facts t
  show (V c main_v109 : S1x1.Idx → Ideal .f32) (((cfg4.win 6).blk t).view.emb (ix2 u v)) = _
  refine congrArg (V c main_v109 : S1x1.Idx → Ideal .f32) (funext fun a => Fin.ext ?_)
  match a with
  | ⟨0, _⟩ => show win4_6.index t (0 : Fin 2) * 1 + 1 * u.val = 0; omega
  | ⟨1, _⟩ => show win4_6.index t (1 : Fin 2) * 1 + 1 * v.val = 0; omega

/-- Entry p of the result's block t sits at row 5000·t + p of the result. -/
theorem out_at (t : Fin cfg4.N) (p : Fin 5000) (u : Fin 1) (h : t.val * 5000 + p.val < 200000) :
    ((cfg4.win 7).blk t).view.emb (ix2 p u) = (ix2 ⟨t.val * 5000 + p.val, h⟩ (0 : Fin 1) : S200000x1.Idx) := by
  obtain ⟨-, -, -, -, -, -, -, -, -, -, -, -, -, -, e0, e1⟩ := idx_facts t
  refine funext fun a => Fin.ext ?_
  match a with
  | ⟨0, _⟩ => show win4_7.index t (0 : Fin 2) * 5000 + 1 * p.val = t.val * 5000 + p.val; omega
  | ⟨1, _⟩ => show win4_7.index t (1 : Fin 2) * 1 + 1 * u.val = 0; omega

/-- The decoder of the arrays as the kernel finds them. -/
abbrev scores (c : Dev nD) : S200000x1.Idx → Ideal .f32 :=
  decode (A := 200000) (K := 128) (B := 128) (V c main_v98) (V c main_v105) (V c main_v106) (V c main_v107)
    (V c main_v108) (V c main_arg16) (V c main_v109)

/-- What grid point t writes back is block t of the decoder of the whole arrays. -/
theorem flushed_eq (c : Dev nD) (t : Fin cfg4.N) :
    (dat4 V c).flushed 7 t = ((cfg4.win 7).blk t).view.read (Elt Ideal) (scores V c) := by
  show (cfg4.win 7).cut (grid4.coords t) ((dat4 V c).after 7 t) = _
  rw [after4_7]
  unfold out4_7
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S128x1) hz,
    View.ld_unit_zero (S := S1x1) hz]
  funext j
  obtain ⟨p, u, rfl⟩ : ∃ (p : Fin 5000) (u : Fin 1), j = ix2 p u := ⟨j 0, j 1, eq_ix2 j⟩
  have ht := t_lt t
  have hp : t.val * 5000 + p.val < 200000 := by have := p.isLt; omega
  show k4_pay1 (iblk4 V c 0 t) (iblk4 V c 1 t) (iblk4 V c 2 t) (iblk4 V c 3 t) (iblk4 V c 4 t) (iblk4 V c 5 t) (iblk4 V c 6 t) (ix2 p u)
      = scores V c (((cfg4.win 7).blk t).view.emb (ix2 p u))
  rw [out_at t p u hp]
  refine (tile_apply _ _ _ _ _ _ _ p u).trans ?_
  unfold scores
  rw [decode_ix2, decode_ix2]
  simp only [rows_u V c t p _ hp, rows_i V c t p _ hp, whole_wa V c t, whole_wb V c t, whole_b1 V c t, whole_w2 V c t,
    whole_b2 V c t]

/-- An index of the result is in point t's block iff each coordinate is in the block's range on its axis. -/
theorem mem_blk (t : Fin cfg4.N) (i : S200000x1.Idx) :
    i ∈ ((cfg4.win 7).blk t).view.set ↔ ∀ a : Fin 2, win4_7.index t a * S5000x1.size a ≤ (i a).val ∧ (i a).val < win4_7.index t a * S5000x1.size a + S5000x1.size a := by
  show i ∈ ((View.whole main_v110).slice (win4_7.rect t)).set ↔ _
  rw [View.set_slice_whole, Rect.mem_set_unit]
  exact Iff.rfl

/-- After the kernel the result is the decoder of the whole arrays. -/
theorem final (c : Dev nD) : (dat4 V c).arrAt 7 cfg4.N = scores V c :=
  (dat4 V c).arrAt_eq_of_cover 7 (scores V c) (fun t _ => flushed_eq V c t) fun i => by
    have hi0 : (i 0).val < 200000 := (i 0).isLt
    have hi1 : (i 1).val < 1 := (i 1).isLt
    obtain ⟨t, ht⟩ : ∃ t : Fin cfg4.N, t.val = (i 0).val / 5000 :=
      ⟨⟨(i 0).val / 5000, by rw [show cfg4.N = 40 from N_4]; omega⟩, rfl⟩
    obtain ⟨-, -, -, -, -, -, -, -, -, -, -, -, -, -, e0, e1⟩ := idx_facts t
    refine ⟨t, flush4_7 t, ?_⟩
    rw [mem_blk]
    intro a
    match a with
    | ⟨0, _⟩ => show win4_7.index t (0 : Fin 2) * 5000 ≤ (i 0).val ∧ (i 0).val < win4_7.index t (0 : Fin 2) * 5000 + 5000; omega
    | ⟨1, _⟩ => show win4_7.index t (1 : Fin 2) * 1 ≤ (i 1).val ∧ (i 1).val < win4_7.index t (1 : Fin 2) * 1 + 1; omega

end Cert.KernelIdeal.Decode

end
-- ==== Proof.KernelValue.lean ====
/-
  The idealized kernel program's result is the network of its arguments.

  Each host stretch computes the neighbour sums, the reciprocal column and the bias row for the kernel that follows
  it; each kernel leaves the layer of the arrays it found (the per-kernel modules); the buffers in between are carried
  unchanged (the trace module).  Reading the fold of the segments from the launch memory forward, buffer by buffer,
  gives the result buffer as the network's `result` of the argument arrays.
-/
import proofs.«166278_j11192684773891_2_alg».proof.Proof.Net
import proofs.«166278_j11192684773891_2_alg».proof.Proof.Trace
import proofs.«166278_j11192684773891_2_alg».proof.Proof.Conv0
import proofs.«166278_j11192684773891_2_alg».proof.Proof.Conv1
import proofs.«166278_j11192684773891_2_alg».proof.Proof.Conv2
import proofs.«166278_j11192684773891_2_alg».proof.Proof.Conv3
import proofs.«166278_j11192684773891_2_alg».proof.Proof.Decode
import Idealize.ShloMosaic.Lib.StableHlo.Run

set_option maxRecDepth 16384

noncomputable section

namespace Cert.KernelIdeal.Fold

open Cert.KernelIdeal Cert.KernelIdeal.Gen Cert.KernelIdeal.Net Cert.MeanConv Cert.RectLayers
open Idealize.ShloMosaic Idealize.ShloMosaic.TcCoe Idealize.ShloMosaic.ValueIdx Idealize.SL.Sem Idealize.ShloMosaic.StableHlo

/-! ## The fold of the segments, read from the launch memory forward -/

variable (m : (ℓ : Loc nD τ sig) → Buf (Elt Ideal) ℓ) (ρ : Dev nD → PrngReg) (c : Dev nD)

set_option maxHeartbeats 2000000 in
/-- Kernel 0's inputs, after the first stretch. -/
theorem s0 : V1 m ρ c main_v11 = sumAtItems (m ((c : Thread nD τ).loc main_arg0)) (m ((c : Thread nD τ).loc main_arg18)) (m ((c : Thread nD τ).loc main_arg19)) := by
  show StableHlo.after hostOps0 (W0 m ρ c) (Proc.devRef .tc main_v11) = _
  after_results_simp
  rfl
theorem r0 : V1 m ρ c main_v20 = recipAtItems (m ((c : Thread nD τ).loc main_arg19)) := by
  show StableHlo.after hostOps0 (W0 m ρ c) (Proc.devRef .tc main_v20) = _
  after_results
  rfl
theorem b0 : V1 m ρ c main_v21 = rowOf (m ((c : Thread nD τ).loc main_arg4)) := by
  show StableHlo.after hostOps0 (W0 m ρ c) (Proc.devRef .tc main_v21) = _
  after_results
  rfl

/-- Kernel 0 leaves the first layer's item features. -/
theorem item1 : W2 m ρ c (Proc.devRef .tc main_v22)
    = hItem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) := by
  refine (W2_arr m ρ c 6).trans ((Conv0.final (V1 m ρ) c).trans ?_)
  unfold Conv0.layer hItem
  rw [s0, r0, b0]
  rw [show V1 m ρ c main_arg1 = m ((c : Thread nD τ).loc main_arg1) from Trace.arg_W1 m ρ c main_arg1 (by decide),
    show V1 m ρ c main_arg2 = m ((c : Thread nD τ).loc main_arg2) from Trace.arg_W1 m ρ c main_arg2 (by decide),
    show V1 m ρ c main_arg3 = m ((c : Thread nD τ).loc main_arg3) from Trace.arg_W1 m ρ c main_arg3 (by decide)]

set_option maxHeartbeats 2000000 in
/-- Kernel 1's inputs, after the second stretch. -/
theorem s1 : V3 m ρ c main_v34 = sumAtUsers (m ((c : Thread nD τ).loc main_arg1)) (m ((c : Thread nD τ).loc main_arg18)) (m ((c : Thread nD τ).loc main_arg19)) := by
  show StableHlo.after hostOps1 (W2 m ρ c) (Proc.devRef .tc main_v34) = _
  after_results_simp
  rw [Trace.arg_W2 m ρ c main_arg1 (by decide), Trace.arg_W2 m ρ c main_arg18 (by decide),
    Trace.arg_W2 m ρ c main_arg19 (by decide)]
  try rfl
theorem r1 : V3 m ρ c main_v43 = recipAtUsers (m ((c : Thread nD τ).loc main_arg18)) := by
  show StableHlo.after hostOps1 (W2 m ρ c) (Proc.devRef .tc main_v43) = _
  after_results
  rw [Trace.arg_W2 m ρ c main_arg18 (by decide)]
  try rfl
theorem b1 : V3 m ρ c main_v44 = rowOf (m ((c : Thread nD τ).loc main_arg7)) := by
  show StableHlo.after hostOps1 (W2 m ρ c) (Proc.devRef .tc main_v44) = _
  after_results
  rw [Trace.arg_W2 m ρ c main_arg7 (by decide)]
  try rfl

/-- Kernel 1 leaves the first layer's user features. -/
theorem user1 : W4 m ρ c (Proc.devRef .tc main_v45)
    = hUser (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg18)) (m ((c : Thread nD τ).loc main_arg19)) := by
  refine (W4_arr m ρ c 6).trans ((Conv1.final (V3 m ρ) c).trans ?_)
  unfold Conv1.layer hUser
  rw [s1, r1, b1]
  rw [show V3 m ρ c main_arg0 = m ((c : Thread nD τ).loc main_arg0) from Trace.arg_W3 m ρ c main_arg0 (by decide),
    show V3 m ρ c main_arg5 = m ((c : Thread nD τ).loc main_arg5) from Trace.arg_W3 m ρ c main_arg5 (by decide),
    show V3 m ρ c main_arg6 = m ((c : Thread nD τ).loc main_arg6) from Trace.arg_W3 m ρ c main_arg6 (by decide)]

set_option maxHeartbeats 2000000 in
/-- Kernel 2's inputs, after the third stretch. -/
theorem s2 : V5 m ρ c main_v57 = sumAtItems (W4 m ρ c (Proc.devRef .tc main_v45)) (m ((c : Thread nD τ).loc main_arg18)) (m ((c : Thread nD τ).loc main_arg19)) := by
  show StableHlo.after hostOps2 (W4 m ρ c) (Proc.devRef .tc main_v57) = _
  after_results_simp
  rw [Trace.arg_W4 m ρ c main_arg18 (by decide), Trace.arg_W4 m ρ c main_arg19 (by decide)]
  try rfl
theorem r2 : V5 m ρ c main_v66 = recipAtItems (m ((c : Thread nD τ).loc main_arg19)) := by
  show StableHlo.after hostOps2 (W4 m ρ c) (Proc.devRef .tc main_v66) = _
  after_results
  rw [Trace.arg_W4 m ρ c main_arg19 (by decide)]
  try rfl
theorem b2 : V5 m ρ c main_v67 = rowOf (m ((c : Thread nD τ).loc main_arg10)) := by
  show StableHlo.after hostOps2 (W4 m ρ c) (Proc.devRef .tc main_v67) = _
  after_results
  rw [Trace.arg_W4 m ρ c main_arg10 (by decide)]
  try rfl

/-- Kernel 2 leaves the second layer's item features. -/
theorem item2 : W6 m ρ c (Proc.devRef .tc main_v68)
    = zItem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg18)) (m ((c : Thread nD τ).loc main_arg19)) := by
  refine (W6_arr m ρ c 6).trans ((Conv2.final (V5 m ρ) c).trans ?_)
  unfold Conv2.layer zItem
  rw [s2, r2, b2, user1]
  rw [show V5 m ρ c main_v22 = _ from (Trace.v22_W5 m ρ c).trans (item1 m ρ c),
    show V5 m ρ c main_arg8 = m ((c : Thread nD τ).loc main_arg8) from Trace.arg_W5 m ρ c main_arg8 (by decide),
    show V5 m ρ c main_arg9 = m ((c : Thread nD τ).loc main_arg9) from Trace.arg_W5 m ρ c main_arg9 (by decide)]

set_option maxHeartbeats 2000000 in
/-- Kernel 3's inputs, after the fourth stretch. -/
theorem s3 : V7 m ρ c main_v80 = sumAtUsers (W6 m ρ c (Proc.devRef .tc main_v22)) (m ((c : Thread nD τ).loc main_arg18)) (m ((c : Thread nD τ).loc main_arg19)) := by
  show StableHlo.after hostOps3 (W6 m ρ c) (Proc.devRef .tc main_v80) = _
  after_results_simp
  rw [Trace.arg_W6 m ρ c main_arg18 (by decide), Trace.arg_W6 m ρ c main_arg19 (by decide)]
  try rfl
theorem r3 : V7 m ρ c main_v89 = recipAtUsers (m ((c : Thread nD τ).loc main_arg18)) := by
  show StableHlo.after hostOps3 (W6 m ρ c) (Proc.devRef .tc main_v89) = _
  after_results
  rw [Trace.arg_W6 m ρ c main_arg18 (by decide)]
  try rfl
theorem b3 : V7 m ρ c main_v90 = rowOf (m ((c : Thread nD τ).loc main_arg13)) := by
  show StableHlo.after hostOps3 (W6 m ρ c) (Proc.devRef .tc main_v90) = _
  after_results
  rw [Trace.arg_W6 m ρ c main_arg13 (by decide)]
  try rfl

/-- Kernel 3 leaves the second layer's user features. -/
theorem user2 : W8 m ρ c (Proc.devRef .tc main_v91)
    = zUser (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg11)) (m ((c : Thread nD τ).loc main_arg12)) (m ((c : Thread nD τ).loc main_arg13)) (m ((c : Thread nD τ).loc main_arg18)) (m ((c : Thread nD τ).loc main_arg19)) := by
  refine (W8_arr m ρ c 6).trans ((Conv3.final (V7 m ρ) c).trans ?_)
  unfold Conv3.layer zUser
  rw [s3, r3, b3, Trace.v22_W6 m ρ c, item1]
  rw [show V7 m ρ c main_v45 = _ from (Trace.v45_W7 m ρ c).trans (user1 m ρ c),
    show V7 m ρ c main_arg11 = m ((c : Thread nD τ).loc main_arg11) from Trace.arg_W7 m ρ c main_arg11 (by decide),
    show V7 m ρ c main_arg12 = m ((c : Thread nD τ).loc main_arg12) from Trace.arg_W7 m ρ c main_arg12 (by decide)]

set_option maxHeartbeats 2000000 in
/-- Kernel 4's inputs, after the fifth stretch. -/
theorem g_u : V9 m ρ c main_v98 = Host.gather gather_S100000x128_S200000x1_S200000x128_1_0_n_n_0_1_1128
    (W8 m ρ c (Proc.devRef .tc main_v91)) (labelUserCol (m ((c : Thread nD τ).loc main_arg20))) := by
  show StableHlo.after hostOps4 (W8 m ρ c) (Proc.devRef .tc main_v98) = _
  after_results_simp
  rw [Trace.arg_W8 m ρ c main_arg20 (by decide)]
  try rfl
set_option maxHeartbeats 2000000 in
theorem g_i : V9 m ρ c main_v105 = Host.gather gather_S50000x128_S200000x1_S200000x128_1_0_n_n_0_1_1128
    (W8 m ρ c (Proc.devRef .tc main_v68)) (labelItemCol (m ((c : Thread nD τ).loc main_arg21))) := by
  show StableHlo.after hostOps4 (W8 m ρ c) (Proc.devRef .tc main_v105) = _
  after_results_simp
  rw [Trace.arg_W8 m ρ c main_arg21 (by decide)]
  try rfl
theorem w_a : V9 m ρ c main_v106 = extractStridedSlice S128x128 ![0, 0] (m ((c : Thread nD τ).loc main_arg14)) slices_S256x128_S128x128_0_0 := by
  show StableHlo.after hostOps4 (W8 m ρ c) (Proc.devRef .tc main_v106) = _
  after_results
  rw [Trace.arg_W8 m ρ c main_arg14 (by decide)]
  try rfl
theorem w_b : V9 m ρ c main_v107 = extractStridedSlice S128x128 ![128, 0] (m ((c : Thread nD τ).loc main_arg14)) slices_S256x128_S128x128_128_0 := by
  show StableHlo.after hostOps4 (W8 m ρ c) (Proc.devRef .tc main_v107) = _
  after_results
  rw [Trace.arg_W8 m ρ c main_arg14 (by decide)]
  try rfl
theorem b_1 : V9 m ρ c main_v108 = shapeCast S1x128 (m ((c : Thread nD τ).loc main_arg15)) shapeCasts_S128_S1x128 := by
  show StableHlo.after hostOps4 (W8 m ρ c) (Proc.devRef .tc main_v108) = _
  after_results
  rw [Trace.arg_W8 m ρ c main_arg15 (by decide)]
  try rfl
theorem b_2 : V9 m ρ c main_v109 = shapeCast S1x1 (m ((c : Thread nD τ).loc main_arg17)) shapeCasts_S1_S1x1 := by
  show StableHlo.after hostOps4 (W8 m ρ c) (Proc.devRef .tc main_v109) = _
  after_results
  rw [Trace.arg_W8 m ρ c main_arg17 (by decide)]
  try rfl

/-- Kernel 4 leaves the scores. -/
theorem scored : W10 m ρ c (Proc.devRef .tc main_v110)
    = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
        (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W10_arr m ρ c 7).trans ((Decode.final (V9 m ρ) c).trans ?_)
  unfold Decode.scores scores
  rw [g_u, g_i, w_a, w_b, b_1, b_2, user2, Trace.v68_W8 m ρ c, item2]
  rw [show V9 m ρ c main_arg16 = m ((c : Thread nD τ).loc main_arg16) from Trace.arg_W9 m ρ c main_arg16 (by decide)]

/-- The result buffer after the last stretch: the scores as a vector. -/
theorem result_eq : W11 m ρ c (Proc.devRef .tc main_v111)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
        (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show StableHlo.after hostOps5 (W10 m ρ c) (Proc.devRef .tc main_v111) = _
  after_results
  rw [scored]
  rfl

end Cert.KernelIdeal.Fold

end
-- ==== Proof.RefValue.lean ====
/-
  The idealized reference computes the same network.

  Layer by layer the reference's arrays are the network's.  A take of rows is a take of rows whether or not the rows
  pass through the narrow format on the way (the identity at the exact values), so the neighbour sums are the same
  arrays.  Where the reference divides a neighbour sum by the count column the network multiplies by the reciprocal
  column; where the reference joins the two gathered feature arrays and multiplies by the whole first decoder matrix
  the network multiplies each by its half: the host forms of the mean-convolution lemmas say these agree entry by entry.
  Each layer's equality is then used as an equality of whole arrays in the next layer's sums.
-/
import proofs.«166278_j11192684773891_2_alg».proof.Proof.Net
import proofs.«166278_j11192684773891_2_alg».proof.Proof.Gen.ReferenceIdeal.Read

set_option maxRecDepth 16384

noncomputable section

namespace Cert.ReferenceIdeal.SameNet

open Cert.ReferenceIdeal Cert.ReferenceIdeal.Gen Cert.ReferenceIdeal.Read
open Cert.MeanConv Cert.RectLayers
open Idealize.ShloMosaic Idealize.ShloMosaic.TcCoe Idealize.ShloMosaic.ValueIdx
open Cert.KernelIdeal.Net (hItem hUser zItem zUser scores result sumAtItems sumAtUsers recipAtItems recipAtUsers rowOf
  labelUserCol labelItemCol)

variable (x0 : (⟨S100000x128, .f32⟩ : BufTy).Contents (Elt Ideal)) (x1 : (⟨S50000x128, .f32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))
  (x14 : (⟨S256x128, .f32⟩ : BufTy).Contents (Elt Ideal)) (x15 : (⟨S128, .f32⟩ : BufTy).Contents (Elt Ideal)) (x16 : (⟨S128x1, .f32⟩ : BufTy).Contents (Elt Ideal)) (x17 : (⟨S1, .f32⟩ : BufTy).Contents (Elt Ideal))
  (x18 x19 : (⟨S640000, .i32⟩ : BufTy).Contents (Elt Ideal)) (x20 x21 : (⟨S200000, .i32⟩ : BufTy).Contents (Elt Ideal))

/-! ## The neighbour sums -/

/-- Per item, the sum over its edges of the source user's row, as the reference spells it. -/
theorem sumAtItems_ref (X : (⟨S100000x128, .f32⟩ : BufTy).Contents (Elt Ideal)) (u i : (⟨S640000, .i32⟩ : BufTy).Contents (Elt Ideal)) :
    Host.scatterAdd scatter_S50000x128_S640000x1_S640000x128_1_0_0_1
        (broadcastInDim S50000x128 ![] bcast_S_S50000x128 (constant (F := Ideal) S_ .f32 0x00000000#32))
        (broadcastInDim S640000x1 ![0] bcast_S640000_S640000x1_0 i)
        (Host.gather gather_S100000x128_S640000x1_S640000x128_1_0_n_n_0_1_1128 X
          (broadcastInDim S640000x1 ![0] bcast_S640000_S640000x1_0
            (select (cmpi .slt u (broadcastInDim S640000 ![] bcast_S_S640000 (constantI S_ 32 0#32)))
              (addi u (broadcastInDim S640000 ![] bcast_S_S640000 (constantI S_ 32 100000#32))) u)))
      = sumAtItems X u i := rfl

/-- Per user, the sum over its edges of the source item's row, as the reference spells it. -/
theorem sumAtUsers_ref (X : (⟨S50000x128, .f32⟩ : BufTy).Contents (Elt Ideal)) (u i : (⟨S640000, .i32⟩ : BufTy).Contents (Elt Ideal)) :
    Host.scatterAdd scatter_S100000x128_S640000x1_S640000x128_1_0_0_1
        (broadcastInDim S100000x128 ![] bcast_S_S100000x128 (constant (F := Ideal) S_ .f32 0x00000000#32))
        (broadcastInDim S640000x1 ![0] bcast_S640000_S640000x1_0 u)
        (Host.gather gather_S50000x128_S640000x1_S640000x128_1_0_n_n_0_1_1128 X
          (broadcastInDim S640000x1 ![0] bcast_S640000_S640000x1_0
            (select (cmpi .slt i (broadcastInDim S640000 ![] bcast_S_S640000 (constantI S_ 32 0#32)))
              (addi i (broadcastInDim S640000 ![] bcast_S_S640000 (constantI S_ 32 50000#32))) i)))
      = sumAtUsers X u i := rfl

/-! ## The four layers -/

/-- The first layer's item features. -/
theorem item1 : val_main_v26 (F := Ideal) x0 x1 x2 x3 x4 x18 x19 = hItem x0 x1 x2 x3 x4 x18 x19 := by
  funext i
  obtain ⟨p, q, rfl⟩ : ∃ (p : Fin 50000) (q : Fin 128), i = ix2 p q := ⟨i 0, i 1, eq_ix2 i⟩
  refine Eq.trans ?_ ((host_conv_rect_apply dot_S50000x128_S128x128_S50000x128_1_0_0_1_n_n rfl rfl rfl rfl rfl rfl rfl rfl none
    (val_main_v9 (F := Ideal) x0 x18 x19) x1 (val_main_v13 (F := Ideal) x19) x2 x3 x4 ![] bcast_S_S50000
    bcast_S50000_S50000x1_0 bcast_S50000x1_S50000x128_0_1 bcast_S128_S1x128_1 bcast_S1x128_S50000x128_0_1
    Cert.KernelIdeal.Gen.shapeCasts_S128_S1x128 ![] bcast_S_S50000x128 p q).trans ?_)
  · rfl
  · unfold hItem
    rw [show val_main_v9 (F := Ideal) x0 x18 x19 = sumAtItems x0 x18 x19 from sumAtItems_ref x0 x18 x19]
    rfl

/-- The first layer's user features. -/
theorem user1 : val_main_v53 (F := Ideal) x0 x1 x5 x6 x7 x18 x19 = hUser x0 x1 x5 x6 x7 x18 x19 := by
  funext i
  obtain ⟨p, q, rfl⟩ : ∃ (p : Fin 100000) (q : Fin 128), i = ix2 p q := ⟨i 0, i 1, eq_ix2 i⟩
  refine Eq.trans ?_ ((host_conv_rect_apply dot_S100000x128_S128x128_S100000x128_1_0_0_1_n_n rfl rfl rfl rfl rfl rfl rfl rfl none
    (val_main_v36 (F := Ideal) x1 x18 x19) x0 (val_main_v40 (F := Ideal) x18) x5 x6 x7 ![] bcast_S_S100000
    bcast_S100000_S100000x1_0 bcast_S100000x1_S100000x128_0_1 bcast_S128_S1x128_1 bcast_S1x128_S100000x128_0_1
    Cert.KernelIdeal.Gen.shapeCasts_S128_S1x128 ![] bcast_S_S100000x128 p q).trans ?_)
  · rfl
  · unfold hUser
    rw [show val_main_v36 (F := Ideal) x1 x18 x19 = sumAtUsers x1 x18 x19 from sumAtUsers_ref x1 x18 x19]
    rfl

/-- The second layer's item features. -/
theorem item2 : val_main_v78 (F := Ideal) x0 x1 x2 x3 x4 x5 x6 x7 x8 x9 x10 x18 x19
    = zItem x0 x1 x2 x3 x4 x5 x6 x7 x8 x9 x10 x18 x19 := by
  funext i
  obtain ⟨p, q, rfl⟩ : ∃ (p : Fin 50000) (q : Fin 128), i = ix2 p q := ⟨i 0, i 1, eq_ix2 i⟩
  refine Eq.trans ?_ ((host_conv_apply dot_S50000x128_S128x128_S50000x128_1_0_0_1_n_n rfl rfl rfl rfl rfl rfl rfl rfl none
    (val_main_v63 (F := Ideal) x0 x1 x5 x6 x7 x18 x19) (val_main_v26 (F := Ideal) x0 x1 x2 x3 x4 x18 x19)
    (val_main_v67 (F := Ideal) x19) x8 x9 x10 ![] bcast_S_S50000
    bcast_S50000_S50000x1_0 bcast_S50000x1_S50000x128_0_1 bcast_S128_S1x128_1 bcast_S1x128_S50000x128_0_1
    Cert.KernelIdeal.Gen.shapeCasts_S128_S1x128 p q).trans ?_)
  · rfl
  · unfold zItem
    rw [show val_main_v63 (F := Ideal) x0 x1 x5 x6 x7 x18 x19
        = sumAtItems (val_main_v53 (F := Ideal) x0 x1 x5 x6 x7 x18 x19) x18 x19
        from sumAtItems_ref (val_main_v53 (F := Ideal) x0 x1 x5 x6 x7 x18 x19) x18 x19, user1, item1]
    rfl

/-- The second layer's user features. -/
theorem user2 : val_main_v103 (F := Ideal) x0 x1 x2 x3 x4 x5 x6 x7 x11 x12 x13 x18 x19
    = zUser x0 x1 x2 x3 x4 x5 x6 x7 x11 x12 x13 x18 x19 := by
  funext i
  obtain ⟨p, q, rfl⟩ : ∃ (p : Fin 100000) (q : Fin 128), i = ix2 p q := ⟨i 0, i 1, eq_ix2 i⟩
  refine Eq.trans ?_ ((host_conv_apply dot_S100000x128_S128x128_S100000x128_1_0_0_1_n_n rfl rfl rfl rfl rfl rfl rfl rfl none
    (val_main_v88 (F := Ideal) x0 x1 x2 x3 x4 x18 x19) (val_main_v53 (F := Ideal) x0 x1 x5 x6 x7 x18 x19)
    (val_main_v92 (F := Ideal) x18) x11 x12 x13 ![] bcast_S_S100000
    bcast_S100000_S100000x1_0 bcast_S100000x1_S100000x128_0_1 bcast_S128_S1x128_1 bcast_S1x128_S100000x128_0_1
    Cert.KernelIdeal.Gen.shapeCasts_S128_S1x128 p q).trans ?_)
  · rfl
  · unfold zUser
    rw [show val_main_v88 (F := Ideal) x0 x1 x2 x3 x4 x18 x19
        = sumAtUsers (val_main_v26 (F := Ideal) x0 x1 x2 x3 x4 x18 x19) x18 x19
        from sumAtUsers_ref (val_main_v26 (F := Ideal) x0 x1 x2 x3 x4 x18 x19) x18 x19, item1, user1]
    rfl

/-! ## The decoder and the result -/

/-- The scores. -/
theorem scored : val_main_v128 (F := Ideal) x0 x1 x2 x3 x4 x5 x6 x7 x8 x9 x10 x11 x12 x13 x14 x15 x16 x17 x18 x19 x20 x21
    = scores x0 x1 x2 x3 x4 x5 x6 x7 x8 x9 x10 x11 x12 x13 x14 x15 x16 x17 x18 x19 x20 x21 := by
  funext i
  obtain ⟨p, u, rfl⟩ : ∃ (p : Fin 200000) (u : Fin 1), i = ix2 p u := ⟨i 0, i 1, eq_ix2 i⟩
  refine Eq.trans ?_ ((host_decode_apply (A := 200000) (K := 128) (B := 128)
    dot_S200000x256_S256x128_S200000x128_1_0_0_1_n_n rfl rfl rfl rfl rfl rfl rfl rfl
    dot_S200000x128_S128x1_S200000x1_1_0_0_1_n_n rfl rfl rfl rfl rfl rfl rfl rfl none
    (val_main_v110 (F := Ideal) x0 x1 x2 x3 x4 x5 x6 x7 x11 x12 x13 x18 x19 x20)
    (val_main_v117 (F := Ideal) x0 x1 x2 x3 x4 x5 x6 x7 x8 x9 x10 x18 x19 x21) x14 x15 x16 x17
    concatenates_S200000x128_S200000x128_S200000x256_d1 bcast_S128_S1x128_1 bcast_S1x128_S200000x128_0_1 ![]
    bcast_S_S200000x128 bcast_S1_S1x1_1 bcast_S1x1_S200000x1_0_1
    Cert.KernelIdeal.Gen.slices_S256x128_S128x128_0_0 Cert.KernelIdeal.Gen.slices_S256x128_S128x128_128_0
    Cert.KernelIdeal.Gen.shapeCasts_S128_S1x128 Cert.KernelIdeal.Gen.shapeCasts_S1_S1x1 p u).trans ?_)
  · rfl
  · unfold scores
    rw [show val_main_v110 (F := Ideal) x0 x1 x2 x3 x4 x5 x6 x7 x11 x12 x13 x18 x19 x20
        = Host.gather gather_S100000x128_S200000x1_S200000x128_1_0_n_n_0_1_1128
            (val_main_v103 (F := Ideal) x0 x1 x2 x3 x4 x5 x6 x7 x11 x12 x13 x18 x19) (labelUserCol x20) from rfl,
      show val_main_v117 (F := Ideal) x0 x1 x2 x3 x4 x5 x6 x7 x8 x9 x10 x18 x19 x21
        = Host.gather gather_S50000x128_S200000x1_S200000x128_1_0_n_n_0_1_1128
            (val_main_v78 (F := Ideal) x0 x1 x2 x3 x4 x5 x6 x7 x8 x9 x10 x18 x19) (labelItemCol x21) from rfl,
      user2, item2]
    rfl

/-- The reference's result is the network's. -/
theorem result_eq : val_main_v129 (F := Ideal) x0 x1 x2 x3 x4 x5 x6 x7 x8 x9 x10 x11 x12 x13 x14 x15 x16 x17 x18 x19 x20 x21
    = result x0 x1 x2 x3 x4 x5 x6 x7 x8 x9 x10 x11 x12 x13 x14 x15 x16 x17 x18 x19 x20 x21 := by
  unfold val_main_v129 result
  rw [scored]

end Cert.ReferenceIdeal.SameNet

end
-- ==== Proof.lean ====
/-
  A two-layer mean-aggregating graph convolution over users and items with an edge decoder, as five tiled kernels
  among host gathers and scatter-adds, against the same network written with plain array operations.

  The frames of the two kernel programs are the generated ones; the reference's frame is its generated run with the
  result dropped.  The idealization rewrote nothing, so there is nothing to preserve.

  The value claim.  Both programs end with their result at ONE function of the argument arrays, the network's
  `result` (module Net): the kernel program because each host stretch computes the neighbour sums, the reciprocal
  count column and the bias row, each tiled kernel leaves the layer of the arrays it found, and everything else is
  carried unchanged (modules KernelRun, Trace, Conv0 … Conv3, Decode, KernelValue); the reference because, entry by
  entry, dividing a neighbour sum by the count (never below one, so never zero) is multiplying it by the reciprocal,
  the bias may be added before or after the second product, and the product of two joined arrays with a matrix is the
  sum of the products with its halves (modules LibMeanConv, RefValue).  The arguments agree, so the two results are equal.
  No step uses that the inputs are finite.
-/
import proofs.«166278_j11192684773891_2_alg».proof.Defs
import proofs.«166278_j11192684773891_2_alg».proof.Proof.Gen.Kernel
import proofs.«166278_j11192684773891_2_alg».proof.Proof.Gen.Kernel.Frame
import proofs.«166278_j11192684773891_2_alg».proof.Proof.Gen.KernelIdeal
import proofs.«166278_j11192684773891_2_alg».proof.Proof.Gen.KernelIdeal.Frame
import proofs.«166278_j11192684773891_2_alg».proof.Proof.Gen.ReferenceIdeal
import proofs.«166278_j11192684773891_2_alg».proof.Proof.Gen.Pre_finite_inputs
import proofs.«166278_j11192684773891_2_alg».proof.Proof.Gen.ReferenceIdeal.Read
import proofs.«166278_j11192684773891_2_alg».proof.Proof.KernelRun
import proofs.«166278_j11192684773891_2_alg».proof.Proof.KernelValue
import proofs.«166278_j11192684773891_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with their result at the network's `result` of the argument arrays, and the arguments agree. -/
theorem algebraic : Cert.algebraic_KernelIdeal_ReferenceIdeal := by
  intro m ρ m' ρ' _ hagree
  refine ⟨fun c => Cert.KernelIdeal.Net.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21)), ?_, ?_⟩
  · exact (θ_run Cert.KernelIdeal.defs _ _).mono
      (fun _ h c => ⟨(h c).1.trans (Cert.KernelIdeal.Fold.result_eq m ρ c), (h c).2⟩)
      (Cert.KernelIdeal.ResultRun.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [(h c).1, Cert.ReferenceIdeal.Read.val_main_v129_eq, Cert.ReferenceIdeal.SameNet.result_eq,
      e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
